-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩

abbrev nBuf : Space → Nat
  | .hbm => 95
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S100000, .f32⟩
  | .hbm, ⟨17, _⟩ => ⟨S_, .i32⟩
  | .hbm, ⟨18, _⟩ => ⟨S1300000, .i32⟩
  | .hbm, ⟨19, _⟩ => ⟨S1300000, .i1⟩
  | .hbm, ⟨20, _⟩ => ⟨S_, .i32⟩
  | .hbm, ⟨21, _⟩ => ⟨S1300000, .i32⟩
  | .hbm, ⟨22, _⟩ => ⟨S1300000, .i32⟩
  | .hbm, ⟨23, _⟩ => ⟨S1300000, .i32⟩
  | .hbm, ⟨24, _⟩ => ⟨S1300000x1, .i32⟩
  | .hbm, ⟨25, _⟩ => ⟨S_, .f32⟩
  | .hbm, ⟨26, _⟩ => ⟨S1300000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1300000, .i32⟩
  | .hbm, ⟨38, _⟩ => ⟨S1300000, .i1⟩
  | .hbm, ⟨39, _⟩ => ⟨S_, .i32⟩
  | .hbm, ⟨40, _⟩ => ⟨S1300000, .i32⟩
  | .hbm, ⟨41, _⟩ => ⟨S1300000, .i32⟩
  | .hbm, ⟨42, _⟩ => ⟨S1300000, .i32⟩
  | .hbm, ⟨43, _⟩ => ⟨S1300000x1, .i32⟩
  | .hbm, ⟨44, _⟩ => ⟨S1300000, .f32⟩
  | .hbm, ⟨45, _⟩ => ⟨S_, .i32⟩
  | .hbm, ⟨46, _⟩ => ⟨S1300000, .i32⟩
  | .hbm, ⟨47, _⟩ => ⟨S1300000, .i1⟩
  | .hbm, ⟨48, _⟩ => ⟨S_, .i32⟩
  | .hbm, ⟨49, _⟩ => ⟨S1300000, .i32⟩
  | .hbm, ⟨50, _⟩ => ⟨S1300000, .i32⟩
  | .hbm, ⟨51, _⟩ => ⟨S1300000, .i32⟩
  | .hbm, ⟨52, _⟩ => ⟨S1300000x1, .i32⟩
  | .hbm, ⟨53, _⟩ => ⟨S1300000, .f32⟩
  | .hbm, ⟨54, _⟩ => ⟨S1300000, .f32⟩
  | .hbm, ⟨55, _⟩ => ⟨S100000x64, .f32⟩
  | .hbm, ⟨56, _⟩ => ⟨S_, .i32⟩
  | .hbm, ⟨57, _⟩ => ⟨S1300000, .i32⟩
  | .hbm, ⟨58, _⟩ => ⟨S1300000, .i1⟩
  | .hbm, ⟨59, _⟩ => ⟨S_, .i32⟩
  | .hbm, ⟨60, _⟩ => ⟨S1300000, .i32⟩
  | .hbm, ⟨61, _⟩ => ⟨S1300000, .i32⟩
  | .hbm, ⟨62, _⟩ => ⟨S1300000, .i32⟩
  | .hbm, ⟨63, _⟩ => ⟨S1300000x1, .i32⟩
  | .hbm, ⟨64, _⟩ => ⟨S1300000x64, .f32⟩
  | .hbm, ⟨65, _⟩ => ⟨S1300000x1, .f32⟩
  | .hbm, ⟨66, _⟩ => ⟨S1300000x64, .f32⟩
  | .hbm, ⟨67, _⟩ => ⟨S1300000x64, .f32⟩
  | .hbm, ⟨68, _⟩ => ⟨S_, .f32⟩
  | .hbm, ⟨69, _⟩ => ⟨S100000x64, .f32⟩
  | .hbm, ⟨70, _⟩ => ⟨S1300000x1, .i32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S_, .i32⟩
  | .hbm, ⟨75, _⟩ => ⟨S1300000, .i32⟩
  | .hbm, ⟨76, _⟩ => ⟨S1300000, .i1⟩
  | .hbm, ⟨77, _⟩ => ⟨S_, .i32⟩
  | .hbm, ⟨78, _⟩ => ⟨S1300000, .i32⟩
  | .hbm, ⟨79, _⟩ => ⟨S1300000, .i32⟩
  | .hbm, ⟨80, _⟩ => ⟨S1300000, .i32⟩
  | .hbm, ⟨81, _⟩ => ⟨S1300000x1, .i32⟩
  | .hbm, ⟨82, _⟩ => ⟨S1300000x64, .f32⟩
  | .hbm, ⟨83, _⟩ => ⟨S1300000x1, .f32⟩
  | .hbm, ⟨84, _⟩ => ⟨S1300000x64, .f32⟩
  | .hbm, ⟨85, _⟩ => ⟨S1300000x64, .f32⟩
  | .hbm, ⟨86, _⟩ => ⟨S_, .f32⟩
  | .hbm, ⟨87, _⟩ => ⟨S100000x64, .f32⟩
  | .hbm, ⟨88, _⟩ => ⟨S1300000x1, .i32⟩
  | .hbm, ⟨89, _⟩ => ⟨S100000x64, .f32⟩
  | .hbm, ⟨90, _⟩ => ⟨S1x64, .f32⟩
  | .hbm, ⟨91, _⟩ => ⟨S1x64, .f32⟩
  | .hbm, ⟨92, _⟩ => ⟨S1x64, .f32⟩
  | .hbm, ⟨93, _⟩ => ⟨S1x64, .f32⟩
  | .hbm, ⟨94, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_c_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  dot_S1x64_S64x64_S1x64_1_0_0_1_n_n_wf : DotDims.WF S1x64 S64x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S2x1200000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S100000, .i32⟩
  | 9 => ⟨S1x1200000, .i32⟩
  | 10 => ⟨S1200000, .i32⟩
  | 11 => ⟨S1300000, .i32⟩
  | 12 => ⟨S1x1200000, .i32⟩
  | 13 => ⟨S1200000, .i32⟩
  | 14 => ⟨S1300000, .i32⟩
  | 15 => ⟨S100000x64, .f32⟩
  | 16 => ⟨S_, .f32⟩
  | 17 => ⟨S100000, .f32⟩
  | 18 => ⟨S_, .i32⟩
  | 19 => ⟨S1300000, .i32⟩
  | 20 => ⟨S1300000, .i1⟩
  | 21 => ⟨S_, .i32⟩
  | 22 => ⟨S1300000, .i32⟩
  | 23 => ⟨S1300000, .i32⟩
  | 24 => ⟨S1300000, .i32⟩
  | 25 => ⟨S1300000x1, .i32⟩
  | 26 => ⟨S_, .f32⟩
  | 27 => ⟨S1300000, .f32⟩
  | 28 => ⟨S100000, .f32⟩
  | 29 => ⟨S_, .f32⟩
  | 30 => ⟨S100000, .f32⟩
  | 31 => ⟨S100000, .i1⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1300000, .i32⟩
  | 39 => ⟨S1300000, .i1⟩
  | 40 => ⟨S_, .i32⟩
  | 41 => ⟨S1300000, .i32⟩
  | 42 => ⟨S1300000, .i32⟩
  | 43 => ⟨S1300000, .i32⟩
  | 44 => ⟨S1300000x1, .i32⟩
  | 45 => ⟨S1300000, .f32⟩
  | 46 => ⟨S_, .i32⟩
  | 47 => ⟨S1300000, .i32⟩
  | 48 => ⟨S1300000, .i1⟩
  | 49 => ⟨S_, .i32⟩
  | 50 => ⟨S1300000, .i32⟩
  | 51 => ⟨S1300000, .i32⟩
  | 52 => ⟨S1300000, .i32⟩
  | 53 => ⟨S1300000x1, .i32⟩
  | 54 => ⟨S1300000, .f32⟩
  | 55 => ⟨S1300000, .f32⟩
  | 56 => ⟨S_, .i32⟩
  | 57 => ⟨S1300000, .i32⟩
  | 58 => ⟨S1300000, .i1⟩
  | 59 => ⟨S_, .i32⟩
  | 60 => ⟨S1300000, .i32⟩
  | 61 => ⟨S1300000, .i32⟩
  | 62 => ⟨S1300000, .i32⟩
  | 63 => ⟨S1300000x1, .i32⟩
  | 64 => ⟨S1300000x64, .f32⟩
  | 65 => ⟨S1300000x1, .f32⟩
  | 66 => ⟨S1300000x64, .f32⟩
  | 67 => ⟨S1300000x64, .f32⟩
  | 68 => ⟨S_, .f32⟩
  | 69 => ⟨S100000x64, .f32⟩
  | 70 => ⟨S1300000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S_, .f32⟩
  | 80 => ⟨S100000, .f32⟩
  | 81 => ⟨S_, .i32⟩
  | 82 => ⟨S1300000, .i32⟩
  | 83 => ⟨S1300000, .i1⟩
  | 84 => ⟨S_, .i32⟩
  | 85 => ⟨S1300000, .i32⟩
  | 86 => ⟨S1300000, .i32⟩
  | 87 => ⟨S1300000, .i32⟩
  | 88 => ⟨S1300000x1, .i32⟩
  | 89 => ⟨S_, .f32⟩
  | 90 => ⟨S1300000, .f32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .i32⟩
  | 101 => ⟨S1300000, .i32⟩
  | 102 => ⟨S1300000, .i1⟩
  | 103 => ⟨S_, .i32⟩
  | 104 => ⟨S1300000, .i32⟩
  | 105 => ⟨S1300000, .i32⟩
  | 106 => ⟨S1300000, .i32⟩
  | 107 => ⟨S1300000x1, .i32⟩
  | 108 => ⟨S1300000, .f32⟩
  | 109 => ⟨S_, .i32⟩
  | 110 => ⟨S1300000, .i32⟩
  | 111 => ⟨S1300000, .i1⟩
  | 112 => ⟨S_, .i32⟩
  | 113 => ⟨S1300000, .i32⟩
  | 114 => ⟨S1300000, .i32⟩
  | 115 => ⟨S1300000, .i32⟩
  | 116 => ⟨S1300000x1, .i32⟩
  | 117 => ⟨S1300000, .f32⟩
  | 118 => ⟨S1300000, .f32⟩
  | 119 => ⟨S_, .i32⟩
  | 120 => ⟨S1300000, .i32⟩
  | 121 => ⟨S1300000, .i1⟩
  | 122 => ⟨S_, .i32⟩
  | 123 => ⟨S1300000, .i32⟩
  | 124 => ⟨S1300000, .i32⟩
  | 125 => ⟨S1300000, .i32⟩
  | 126 => ⟨S1300000x1, .i32⟩
  | 127 => ⟨S1300000x64, .f32⟩
  | _ => ⟨S100000x64, .f32⟩

abbrev hbmTy0_1 (i : Nat) : BufTy := match i % 128 with
  | 0 => ⟨S1300000x1, .f32⟩
  | 1 => ⟨S1300000x64, .f32⟩
  | 2 => ⟨S1300000x64, .f32⟩
  | 3 => ⟨S_, .f32⟩
  | 4 => ⟨S100000x64, .f32⟩
  | 5 => ⟨S1300000x1, .i32⟩
  | 6 => ⟨S100000x64, .f32⟩
  | 7 => ⟨S1x64, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_c_12 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_call2_v0 : Ref sig .tc := ⟨.hbm, 97, rfl⟩
abbrev main_call2_v1 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_c_20 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c_21 : Ref sig .tc := ⟨.hbm, 119, rfl⟩
abbrev main_v82 : Ref sig .tc := ⟨.hbm, 120, rfl⟩
abbrev main_v83 : Ref sig .tc := ⟨.hbm, 121, rfl⟩
abbrev main_c_22 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_23 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S100000 : S_.BroadcastsInDim S100000 (![] : Fin 0 → Fin S100000.rank)
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.KernelRun.lean ====
/-
  The idealized kernel's run with its result named. The program is three pipelined regions among stretches of host
  operations; run from any memory with zero counters, every weakly fair execution terminates without a fault, and every
  buffer that outlives the regions ends at the contents the fold through the segments gives it: each host operation
  rewrites the one buffer it writes, each region leaves in each of its arrays what its write-backs leave. Read at the
  result buffer this is the result array after the last region; read at an argument it is the launch contents, since
  nothing writes an argument.
-/
import proofs.«169249_j87660282511747_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    segment boundary's contents and the argument arrays end as launched. -/
theorem run_named : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunNamed

end
-- ==== Proof.Finite.lean ====
import proofs.«169249_j87660282511747_2_alg».proof.Pre_finite_inputs
import Idealize.ShloMosaic.PureOps.Ideal
import Idealize.ShloMosaic.Lib.ReduceAll
import Idealize.ShloMosaic.Lib.ValueIdx

/-!
  The precondition "every float input is finite" read back for two of the inputs: the second
  layer's bias and the last layer's weights. The precondition is a conjunction, over the seven
  float inputs, of "all entries have absolute value below +∞"; an extended real whose absolute
  value is below +∞ is neither -∞ nor +∞, hence a real number.
-/

noncomputable section
namespace Cert.Gcn.Finite
open Idealize.ShloMosaic

/-- The rank-0 shape has exactly one index (a function out of the empty set of axes). -/
instance : Subsingleton Cert.Pre_finite_inputs.S_.Idx := ⟨fun a b => funext fun d => d.elim0⟩

/-- The single-precision pattern with all exponent bits set, sign and fraction clear, denotes +∞. -/
theorem top_bits : Ideal.ofBits .f32 0x7F800000#32 = (⊤ : EReal) := by
  simp [Ideal.ofBits, Ideal.ieee]

/-- An extended real whose absolute value max(x, -x) is below +∞ is a real number:
    for x = -∞ the absolute value is -(-∞) = +∞, for x = +∞ it is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison |x| < +∞ came out true, x is a real number. -/
theorem elt_real (x : Ideal .f32)
    (h : FloatOps.cmpf (F := Ideal) .olt (FloatOps.hostAbsf x) (FloatOps.ofBits .f32 0x7F800000#32) = 1#1) :
    ∃ r : ℝ, x = (r : EReal) := by
  refine real_of_abs_lt_top x ?_
  have h' : Ideal.cmp .olt (max x (-x)) (Ideal.ofBits .f32 0x7F800000#32) = 1#1 := h
  rw [top_bits] at h'
  simp only [Ideal.cmp] at h'
  by_contra hc
  rw [decide_eq_false hc] at h'
  exact absurd h' (by decide)

/-- Under the precondition (every float input finite) the second layer's bias and the last layer's weights are real numbers, entry by entry. -/
theorem bias_weights_real [Cert.Pre_finite_inputs.Facts]
    (a0 : FVec Ideal Cert.Pre_finite_inputs.S100000x64 .f32) (a1 : IVec Cert.Pre_finite_inputs.S2x1200000 32)
    (a2 : FVec Ideal Cert.Pre_finite_inputs.S64x64 .f32) (a3 : FVec Ideal Cert.Pre_finite_inputs.S64 .f32)
    (a4 : FVec Ideal Cert.Pre_finite_inputs.S64x64 .f32) (a5 : FVec Ideal Cert.Pre_finite_inputs.S64 .f32)
    (a6 : FVec Ideal Cert.Pre_finite_inputs.S64x64 .f32) (a7 : FVec Ideal Cert.Pre_finite_inputs.S64 .f32)
    (h : Cert.Pre_finite_inputs.fn (F := Ideal) a0 a1 a2 a3 a4 a5 a6 a7 = fun _ => 1#1) :
    (∀ i, ∃ r : ℝ, a5 i = (r : EReal)) ∧ (∀ i, ∃ r : ℝ, a6 i = (r : EReal)) := by
  -- the predicate's one result word, as the conjunction of the seven "all entries finite" words
  have h0 := congrFun h ValueIdx.ix0
  dsimp only [Cert.Pre_finite_inputs.fn, Cert.Pre_finite_inputs.fn_part1, andi] at h0
  simp only [IntOp.andi_eq_one] at h0
  obtain ⟨⟨⟨-, h5⟩, h6⟩, -⟩ := h0
  -- each "all" gives its comparison at every index; the broadcast constant reads +∞ at every index
  exact ⟨fun i => elt_real (a5 i) (Host.reduce_andi_all _ _ _ _ _ h5 i),
         fun i => elt_real (a6 i) (Host.reduce_andi_all _ _ _ _ _ h6 i)⟩
end Cert.Gcn.Finite
end
-- ==== Proof.Graph.lean ====
/-
  The graph side of a graph convolution, as functions of the edge list alone, over the extended reals.

  The edge list is a [2, 1200000] array of node ids: row 0 the sources, row 1 the destinations. Every node also gets a self
  loop, so both rows are extended by 0, 1, …, 99999 to 1300000 endpoints. `degOf` counts, for each node, the endpoints of the
  destination row that name it (a scatter-add of ones; a negative id counts for the node 100000 places above it), `dinvOf` is
  that count to the power -1/2 where it is positive and 0 elsewhere, and the weight of edge e is dinvOf(src e) · dinvOf(dst e). `aggr h`
  sends a [100000, 64] array h of node features to the array whose row n is the sum, over the edges e with destination n,
  of weight(e) · h[src e]: a gather of rows, a scaling, a scatter-add into zeros.

  Nothing here is opened by the certificate: the kernel and the reference compute these same functions of the same edge
  list with the same operations, and only that is used.
-/
import proofs.«169249_j87660282511747_2_alg».proof.Proof.Gen.ReferenceIdeal
import Idealize.ShloMosaic.PureOps.Ideal

noncomputable section

namespace Cert.Gcn

open Cert.ReferenceIdeal Cert.ReferenceIdeal.Gen Idealize.ShloMosaic Idealize.ShloMosaic.TcCoe Idealize.SL.Sem Idealize.ShloMosaic.StableHlo

/-- Row 0 of the edge list, then the self loops: the source of every edge. -/
def srcIds (ei : IVec S2x1200000 32) : IVec S1300000 32 :=
  concatenate S1300000 0 [⟨S1200000, (shapeCast _ (extractStridedSlice S1x1200000 ![0, 0] ei slices_S2x1200000_S1x1200000_0_0) shapeCasts_S1x1200000_S1200000)⟩, ⟨S100000, (iotaInDim S100000 32 0)⟩] concatenates_S1200000_S100000_S1300000_d0

/-- Row 1 of the edge list, then the self loops: the destination of every edge. -/
def dstIds (ei : IVec S2x1200000 32) : IVec S1300000 32 :=
  concatenate S1300000 0 [⟨S1200000, (shapeCast _ (extractStridedSlice S1x1200000 ![1, 0] ei slices_S2x1200000_S1x1200000_1_0) shapeCasts_S1x1200000_S1200000)⟩, ⟨S100000, (iotaInDim S100000 32 0)⟩] concatenates_S1200000_S100000_S1300000_d0

/-- Ids as a column of one-entry index vectors, a negative id moved up by the number of nodes. -/
def wrapCol (v : IVec S1300000 32) : IVec S1300000x1 32 :=
  broadcastInDim S1300000x1 ![0] bcast_S1300000_S1300000x1_0 (select (cmpi .slt v (broadcastInDim S1300000 ![] bcast_S_S1300000 (constantI S_ 32 0#32))) (addi v (broadcastInDim S1300000 ![] bcast_S_S1300000 (constantI S_ 32 100000#32))) v)

/-- Ids as a column of one-entry index vectors, as they are. -/
def col (v : IVec S1300000 32) : IVec S1300000x1 32 :=
  broadcastInDim S1300000x1 ![0] bcast_S1300000_S1300000x1_0 v

/-- How many of the given destination endpoints name each node. -/
def degOf (dst : IVec S1300000 32) : FVec Ideal S100000 .f32 :=
  Host.scatterAdd (F := Ideal) scatter_S100000_S1300000x1_S1300000_n_0_0_1 (broadcastInDim S100000 ![] bcast_S_S100000 (constant S_ .f32 0x00000000#32)) (wrapCol dst) (broadcastInDim S1300000 ![] bcast_S_S1300000 (constant S_ .f32 0x3F800000#32))

/-- degOf^(-1/2) where the count is positive, 0 elsewhere. -/
def dinvOf (dst : IVec S1300000 32) : FVec Ideal S100000 .f32 :=
  select (cmpf (F := Ideal) .ogt (degOf dst) (broadcastInDim S100000 ![] bcast_S_S100000 (constant (F := Ideal) S_ .f32 0x00000000#32))) (Host.rsqrt (degOf dst)) (broadcastInDim S100000 ![] bcast_S_S100000 (id (constant (F := Ideal) S_ .f32 0x00000000#32)))

/-- The weight of every edge, from the endpoints: dinvOf at its source times dinvOf at its destination. -/
def edgeWeightOf (src dst : IVec S1300000 32) : FVec Ideal S1300000 .f32 :=
  mulf (F := Ideal) (Host.gather gather_S100000_S1300000x1_S1300000_n_0_n_n_0_1_1 (dinvOf dst) (wrapCol src)) (Host.gather gather_S100000_S1300000x1_S1300000_n_0_n_n_0_1_1 (dinvOf dst) (wrapCol dst))

/-- The weight of every edge of an edge list. -/
def edgeWeight (ei : IVec S2x1200000 32) : FVec Ideal S1300000 .f32 :=
  edgeWeightOf (srcIds ei) (dstIds ei)

/-- Row n of the result: the sum over the edges into n of the edge's weight times the source's row of h, for any
    sources, destinations and weights. -/
def aggrWith (src dst : IVec S1300000 32) (wt : FVec Ideal S1300000 .f32) (h : FVec Ideal S100000x64 .f32) : FVec Ideal S100000x64 .f32 :=
  Host.scatterAdd (F := Ideal) scatter_S100000x64_S1300000x1_S1300000x64_1_0_0_1 (broadcastInDim S100000x64 ![] bcast_S_S100000x64 (constant S_ .f32 0x00000000#32)) (col dst) (mulf (Host.gather gather_S100000x64_S1300000x1_S1300000x64_1_0_n_n_0_1_164 h (wrapCol src)) (broadcastInDim S1300000x64 ![0, 1] bcast_S1300000x1_S1300000x64_0_1 (broadcastInDim S1300000x1 ![0] bcast_S1300000_S1300000x1_0 wt)))

/-- The aggregation over the graph of an edge list. -/
def aggr (ei : IVec S2x1200000 32) (h : FVec Ideal S100000x64 .f32) : FVec Ideal S100000x64 .f32 :=
  aggrWith (srcIds ei) (dstIds ei) (edgeWeight ei) h

end Cert.Gcn

end
-- ==== Proof.RefValue.lean ====
/-
  The reference's result as three dense layers around the graph aggregation.

  The reference computes x W1, aggregates it over the graph, adds the first bias, takes the maximum with zero, multiplies by
  W2, aggregates again, adds the second bias, multiplies by the last weights and adds the last bias; it recomputes the
  degrees and the edge weights for the second convolution, as the same operations of the same edge list. `refOut` is
  that composition with the graph part kept as the one function `aggr`; the run's composed term is it, by unfolding.
-/
import proofs.«169249_j87660282511747_2_alg».proof.Proof.RefRunP
import proofs.«169249_j87660282511747_2_alg».proof.Proof.Graph

noncomputable section

namespace Cert.Gcn

open Cert.ReferenceIdeal Cert.ReferenceIdeal.Gen Idealize.ShloMosaic Idealize.ShloMosaic.TcCoe Idealize.SL.Sem Idealize.ShloMosaic.StableHlo

/-- A bias vector laid as one row, then along every row. -/
def biasRows (b : FVec Ideal S64 .f32) : FVec Ideal S100000x64 .f32 :=
  broadcastInDim S100000x64 ![0, 1] bcast_S1x64_S100000x64_0_1 (broadcastInDim S1x64 ![1] bcast_S64_S1x64_1 b)

/-- The reference: ((aggr (relu (aggr (x W1) + b1) W2) + b2) Wl) + bl. -/
def refOut (x : FVec Ideal S100000x64 .f32) (ei : IVec S2x1200000 32) (W1 : FVec Ideal S64x64 .f32) (b1 : FVec Ideal S64 .f32)
    (W2 : FVec Ideal S64x64 .f32) (b2 : FVec Ideal S64 .f32) (Wl : FVec Ideal S64x64 .f32) (bl : FVec Ideal S64 .f32) :
    FVec Ideal S100000x64 .f32 :=
  addf (Host.dotGeneral dot_S100000x64_S64x64_S100000x64_1_0_0_1_n_n none
      (addf (aggr ei (Host.dotGeneral dot_S100000x64_S64x64_S100000x64_1_0_0_1_n_n none
          (maximumf (addf (aggr ei (Host.dotGeneral dot_S100000x64_S64x64_S100000x64_1_0_0_1_n_n none x W1)) (biasRows b1))
            (broadcastInDim S100000x64 ![] bcast_S_S100000x64 (constant (F := Ideal) S_ .f32 0x00000000#32))) W2)) (biasRows b2)) Wl)
    (biasRows bl)

set_option maxRecDepth 8192 in
/-- The run's composed term is `refOut` of the launch contents of the arguments. -/
theorem res_eq (m : (ℓ : Loc nD τ sig) → Buf (Elt Ideal) ℓ) (c : Dev nD) :
    Cert.ReferenceIdeal.ValueP.res_main_v101 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v101 refOut biasRows aggr aggrWith edgeWeight edgeWeightOf dinvOf degOf wrapCol col srcIds dstIds
  rfl

end Cert.Gcn

end
-- ==== Proof.LibFoldBias.lean ====
/-
  Folding a real bias through real weights, over the extended reals.

  On the extended reals multiplication does not distribute over addition in general (∞ - ∞ is read as -∞). It does when
  the second summand and the factor are real: (a + b) w = a w + b w for real b and w and ANY extended real a — adding a
  real to an infinite a leaves it, the product b w is real, so both sides are the same infinity when a is infinite and
  w ≠ 0, both are 0 when w = 0, and the finite case is the law of the reals (`add_mul_real`). Summed over a contracted
  coordinate — sums of extended reals commute and associate — this gives the dense-layer identity
  (a + b) W + c = a W + (b W + c) for a real bias b and real weights W, whatever the row a holds (`fold_bias`): a bias
  added before a linear layer can be pushed through the layer and merged with the layer's own bias without knowing the
  activations finite.
-/
import Mathlib.Data.EReal.Operations
import Mathlib.Algebra.BigOperators.Group.Finset.Basic
import Mathlib.Algebra.BigOperators.Fin

open scoped BigOperators

namespace Cert.Lib.FoldBias

/-- Multiplication by a real distributes over the sum of any extended real and a real. -/
theorem add_mul_real (a : EReal) (b w : ℝ) :
    (a + (b : EReal)) * (w : EReal) = a * (w : EReal) + (b : EReal) * (w : EReal) := by
  induction a using EReal.rec with
  | bot =>
    rcases lt_trichotomy w 0 with hw | hw | hw
    · rw [EReal.bot_add, EReal.bot_mul_coe_of_neg hw, ← EReal.coe_mul, EReal.top_add_coe]
    · subst hw; simp
    · rw [EReal.bot_add, EReal.bot_mul_coe_of_pos hw, EReal.bot_add]
  | coe a =>
    rw [← EReal.coe_add, ← EReal.coe_mul, ← EReal.coe_mul, ← EReal.coe_mul, ← EReal.coe_add, add_mul]
  | top =>
    rcases lt_trichotomy w 0 with hw | hw | hw
    · rw [EReal.top_add_coe, EReal.top_mul_coe_of_neg hw, EReal.bot_add]
    · subst hw; simp
    · rw [EReal.top_add_coe, EReal.top_mul_coe_of_pos hw, ← EReal.coe_mul, EReal.top_add_coe]

/-- A real bias folds through real weights: (a + b) W + c = a W + (b W + c), one entry, whatever the row a holds. -/
theorem fold_bias {K : Nat} (a : Fin K → EReal) (b w : Fin K → ℝ) (c : EReal) :
    ∑ k, (a k + (b k : EReal)) * (w k : EReal) + c
      = ∑ k, a k * (w k : EReal) + (∑ k, (b k : EReal) * (w k : EReal) + c) := by
  simp only [add_mul_real]
  rw [Finset.sum_add_distrib, add_assoc]

end Cert.Lib.FoldBias
-- ==== Proof.Spec.lean ====
/-
  The three dense layers of a two-layer graph convolution, as whole-array functions over the extended reals, and the law
  that lets the last layer's bias be folded through its weights.

  Node features are rows of a [100000, 64] array; every layer has a [64, 64] weight matrix. `lin x W` is the plain product
  x W; `reluLin a b W` is relu(a + b) W, the bias `b` a [1, 64] row laid along every row; `linBias a W b` is a W + b.
  Entry (p, q) of each is a sum over the 64 contracted coordinates of row p of the left operand against column q of W,
  so nothing of an entry depends on the other rows.

  The law: for real b and w and ANY extended real a, (a + b) w = a w + b w. On the extended reals multiplication does not
  distribute over addition in general (∞ - ∞), but adding a real to an infinite a leaves it, and the product of two reals
  is real, so both sides are the same infinity when a is infinite (or both 0 when w = 0). Summed over the contracted
  coordinate — sums of extended reals commute and associate — this is (a + b) W + c = a W + (b W + c) for a real bias b and
  real weights W, whatever the rows a hold.
-/
import Idealize.ShloMosaic.Lib.ValueIdx
import Idealize.ShloMosaic.PureOps.Ideal
import proofs.«169249_j87660282511747_2_alg».proof.Proof.LibFoldBias

noncomputable section

open scoped BigOperators

namespace Cert.Gcn

open Idealize.ShloMosaic Idealize.ShloMosaic.ValueIdx

/-- Node features: 100000 rows of 64. -/
abbrev SN : Shape := ⟨2, ![100000, 64]⟩
/-- A layer's weights. -/
abbrev SW : Shape := ⟨2, ![64, 64]⟩
/-- A bias as one row. -/
abbrev SR : Shape := ⟨2, ![1, 64]⟩

/-- The plain product x W. -/
def lin (x : FVec Ideal SN .f32) (w : FVec Ideal SW .f32) : FVec Ideal SN .f32 :=
  fun i => ∑ k : Fin 64, x (ix2 (i 0) k) * w (ix2 k (i 1))

/-- relu(a + b) W, the bias row b laid along every row. -/
def reluLin (a : FVec Ideal SN .f32) (b : FVec Ideal SR .f32) (w : FVec Ideal SW .f32) : FVec Ideal SN .f32 :=
  fun i => ∑ k : Fin 64, max (a (ix2 (i 0) k) + b (ix2 (0 : Fin 1) k)) 0 * w (ix2 k (i 1))

/-- a W + b, the bias row b laid along every row. -/
def linBias (a : FVec Ideal SN .f32) (w : FVec Ideal SW .f32) (b : FVec Ideal SR .f32) : FVec Ideal SN .f32 :=
  fun i => ∑ k : Fin 64, a (ix2 (i 0) k) * w (ix2 k (i 1)) + b (ix2 (0 : Fin 1) (i 1))

theorem lin_apply (x : FVec Ideal SN .f32) (w : FVec Ideal SW .f32) (p : Fin 100000) (q : Fin 64) :
    lin x w (ix2 p q) = ∑ k : Fin 64, x (ix2 p k) * w (ix2 k q) := rfl

theorem reluLin_apply (a : FVec Ideal SN .f32) (b : FVec Ideal SR .f32) (w : FVec Ideal SW .f32) (p : Fin 100000) (q : Fin 64) :
    reluLin a b w (ix2 p q) = ∑ k : Fin 64, max (a (ix2 p k) + b (ix2 (0 : Fin 1) k)) 0 * w (ix2 k q) := rfl

theorem linBias_apply (a : FVec Ideal SN .f32) (w : FVec Ideal SW .f32) (b : FVec Ideal SR .f32) (p : Fin 100000) (q : Fin 64) :
    linBias a w b (ix2 p q) = ∑ k : Fin 64, a (ix2 p k) * w (ix2 k q) + b (ix2 (0 : Fin 1) q) := rfl

/-- Multiplication by a real distributes over the sum of any extended real and a real. -/
theorem add_mul_real (a : EReal) (b w : ℝ) :
    (a + (b : EReal)) * (w : EReal) = a * (w : EReal) + (b : EReal) * (w : EReal) :=
  Cert.Lib.FoldBias.add_mul_real a b w

/-- A real bias folds through real weights: (a + b) W + c = a W + (b W + c), one entry, whatever the row a holds. -/
theorem fold_bias {K : Nat} (a : Fin K → EReal) (b w : Fin K → ℝ) (c : EReal) :
    ∑ k, (a k + (b k : EReal)) * (w k : EReal) + c
      = ∑ k, a k * (w k : EReal) + (∑ k, (b k : EReal) * (w k : EReal) + c) :=
  Cert.Lib.FoldBias.fold_bias a b w c

end Cert.Gcn

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.Region0.lean ====
/-
  Region 0 of the kernel as one whole-array function: the plain product of the node features with the first layer's weights.

  The region walks the 100000 rows in 10 blocks of 10000; block t of the output is written back at point t and holds, at
  (p, q), a sum over the 64 contracted coordinates of row p of the point's input block — row t · 10000 + p of the input
  array — against column q of the weights, which every point reads whole. So block t is the restriction of
  `lin` of the arrays as the region finds them, the ten blocks tile the rows, and the array after the region is
  `lin` of those arrays.
-/
import proofs.«169249_j87660282511747_2_alg».proof.Proof.Gen.KernelIdeal.Frame
import proofs.«169249_j87660282511747_2_alg».proof.Proof.Spec
import proofs.«169249_j87660282511747_2_alg».proof.Proof.LibSoftplus
import proofs.«169249_j87660282511747_2_alg».proof.Proof.LibDenseLayer
import Idealize.ShloMosaic.Lib.Pipeline.Value
import Idealize.ShloMosaic.Lib.ValueLayout

noncomputable section

open scoped BigOperators

namespace Cert.Gcn.Region0

open Idealize.ShloMosaic Idealize.ShloMosaic.TcCoe Idealize.ShloMosaic.ValueIdx Idealize.SL.Sem
open Cert.KernelIdeal Cert.KernelIdeal.Gen

/-- A rectangle that starts at the origin. -/
theorem off_zero : (![0, 0] : Fin 2 → Nat) = fun _ => 0 := funext fun a => by fin_cases a <;> rfl

/-- The body's stored value at an entry, from the blocks it loads. -/
theorem payload_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact Cert.Lib.Softplus.matmul0_plain_apply _ rfl none _ _ p q

/-- The stored value at an entry of block b is `lin` at the matching entry of the arrays, when the row block is rows
    b · 10000 … of the array and the other blocks are the arrays themselves. -/
theorem block_entry (X : FVec Ideal Cert.Gcn.SN .f32) (W : FVec Ideal Cert.Gcn.SW .f32)
    (x0 : Vec Ideal S10000x64 .f32) (x1 : Vec Ideal S64x64 .f32) (b : Nat)
    (h0 : ∀ (p : Fin 10000) (k : Fin 64) (r : Fin 100000), r.val = b * 10000 + p.val → x0 (ix2 p k) = X (ix2 r k))
    (h1 : ∀ i, x1 i = W i)
    (j : S10000x64.Idx) (i : Cert.Gcn.SN.Idx) (hi0 : (i 0).val = b * 10000 + (j 0).val) (hi1 : (i 1).val = (j 1).val) :
    k0_pay1 x0 x1 j = Cert.Gcn.lin X W i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [payload_apply, Cert.Gcn.lin_apply]
  refine Finset.sum_congr rfl fun k _ => ?_
  rw [h0 p k r hi0, h1]

variable (V : (c : Dev nD) → (b : Ref sig .tc) → Buf (Elt Ideal) ((c : Thread nD τ).loc b))

/-- The printed index maps over the grid: the row blocks move with the point, the others stay at the origin. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of `lin` of the arrays as the region finds them. -/
theorem flushed_eq (c : Dev nD) (t : Fin cfg0.N) :
    (dat0 V c).flushed 2 t = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero off_zero]
  simp only [View.ld_unit_zero (S := S10000x64) off_zero, View.ld_unit_zero (S := S64x64) off_zero]
  obtain ⟨e0, e1, e2, e3, e4, e5⟩ := idx_facts t
  funext j
  show k0_pay1 (iblk0 V c 0 t) (iblk0 V c 1 t) j = Cert.Gcn.lin (V c main_arg0) (V c main_arg2) (((cfg0.win 2).blk t).view.emb j)
  refine block_entry (V c main_arg0) (V c main_arg2) (iblk0 V c 0 t) (iblk0 V c 1 t) (win0_2.index t (0 : Fin 2)) ?_ ?_ j _ ?_ ?_
  · intro p k r hr
    show V c main_arg0 (((cfg0.win 0).blk t).view.emb (ix2 p k)) = V c main_arg0 (ix2 r k)
    refine congrArg (V c main_arg0) (funext fun a => Fin.ext ?_)
    match a with
    | ⟨0, _⟩ => show win0_0.index t (0 : Fin 2) * 10000 + 1 * p.val = r.val; omega
    | ⟨1, _⟩ => show win0_0.index t (1 : Fin 2) * 64 + 1 * k.val = k.val; omega
  · intro i
    show V c main_arg2 (((cfg0.win 1).blk t).view.emb i) = V c main_arg2 i
    refine congrArg (V c main_arg2) (funext fun a => Fin.ext ?_)
    match a with
    | ⟨0, _⟩ => show win0_1.index t (0 : Fin 2) * 64 + 1 * (i 0).val = (i 0).val; omega
    | ⟨1, _⟩ => show win0_1.index t (1 : Fin 2) * 64 + 1 * (i 1).val = (i 1).val; omega
  · show win0_2.index t (0 : Fin 2) * 10000 + 1 * (j 0).val = win0_2.index t (0 : Fin 2) * 10000 + (j 0).val; omega
  · show win0_2.index t (1 : Fin 2) * 64 + 1 * (j 1).val = (j 1).val; omega

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v35).slice (win0_2.rect t)).set ↔ _
  rw [View.set_slice_whole, Rect.mem_set_unit]
  exact Iff.rfl

/-- Every row is in some point's block: row r in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region. -/
theorem array_eq (c : Dev nD) : (dat0 V c).arrAt 2 cfg0.N = Cert.Gcn.lin (V c main_arg0) (V c main_arg2) :=
  (dat0 V c).arrAt_eq_of_cover 2 _ (fun t _ => flushed_eq V c t) cover

end Cert.Gcn.Region0

end
-- ==== Proof.Region1.lean ====
/-
  Region 1 of the kernel as one whole-array function: the bias row added, the maximum with zero taken, and the product with the second layer's weights.

  The region walks the 100000 rows in 10 blocks of 10000; block t of the output is written back at point t and holds, at
  (p, q), a sum over the 64 contracted coordinates of row p of the point's input block — row t · 10000 + p of the input
  array — against column q of the weights, which every point reads whole. So block t is the restriction of
  `reluLin` of the arrays as the region finds them, the ten blocks tile the rows, and the array after the region is
  `reluLin` of those arrays.
-/
import proofs.«169249_j87660282511747_2_alg».proof.Proof.Gen.KernelIdeal.Frame
import proofs.«169249_j87660282511747_2_alg».proof.Proof.Spec
import proofs.«169249_j87660282511747_2_alg».proof.Proof.LibSoftplus
import proofs.«169249_j87660282511747_2_alg».proof.Proof.LibDenseLayer
import Idealize.ShloMosaic.Lib.Pipeline.Value
import Idealize.ShloMosaic.Lib.ValueLayout

noncomputable section

open scoped BigOperators

namespace Cert.Gcn.Region1

open Idealize.ShloMosaic Idealize.ShloMosaic.TcCoe Idealize.ShloMosaic.ValueIdx Idealize.SL.Sem
open Cert.KernelIdeal Cert.KernelIdeal.Gen

/-- A rectangle that starts at the origin. -/
theorem off_zero : (![0, 0] : Fin 2 → Nat) = fun _ => 0 := funext fun a => by fin_cases a <;> rfl

/-- The body's stored value at an entry, from the blocks it loads. -/
theorem payload_apply (x0 : Vec Ideal S10000x64 .f32) (x1 : Vec Ideal S1x64 .f32) (x2 : Vec Ideal S64x64 .f32) (p : Fin 10000) (q : Fin 64) :
    k1_pay1 x0 x1 x2 (ix2 p q) = ∑ k : Fin 64, max (x0 (ix2 p k) + x1 (ix2 (0 : Fin 1) k)) 0 * x2 (ix2 k q) := by
  unfold k1_pay1
  refine (Cert.Lib.Softplus.matmul0_plain_apply _ rfl none _ _ p q).trans ?_
  refine Finset.sum_congr rfl fun k _ => ?_
  rw [truncf_apply, truncf_apply, Cert.Lib.DenseLayer.relu_apply, addf_apply, shapeCast_self, shapeCast_self,
    broadcastTo_1b_ab_apply]

/-- The stored value at an entry of block b is `reluLin` at the matching entry of the arrays, when the row block is rows
    b · 10000 … of the array and the other blocks are the arrays themselves. -/
theorem block_entry (X : FVec Ideal Cert.Gcn.SN .f32) (B : FVec Ideal Cert.Gcn.SR .f32) (W : FVec Ideal Cert.Gcn.SW .f32)
    (x0 : Vec Ideal S10000x64 .f32) (x1 : Vec Ideal S1x64 .f32) (x2 : Vec Ideal S64x64 .f32) (b : Nat)
    (h0 : ∀ (p : Fin 10000) (k : Fin 64) (r : Fin 100000), r.val = b * 10000 + p.val → x0 (ix2 p k) = X (ix2 r k))
    (h1 : ∀ i, x1 i = B i)
    (h2 : ∀ i, x2 i = W i)
    (j : S10000x64.Idx) (i : Cert.Gcn.SN.Idx) (hi0 : (i 0).val = b * 10000 + (j 0).val) (hi1 : (i 1).val = (j 1).val) :
    k1_pay1 x0 x1 x2 j = Cert.Gcn.reluLin X B W i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [payload_apply, Cert.Gcn.reluLin_apply]
  refine Finset.sum_congr rfl fun k _ => ?_
  rw [h0 p k r hi0, h1, h2]

variable (V : (c : Dev nD) → (b : Ref sig .tc) → Buf (Elt Ideal) ((c : Thread nD τ).loc b))

/-- The printed index maps over the grid: the row blocks move with the point, the others stay at the origin. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) = t.val :=
  (by decide +kernel : ∀ t : Fin grid1.N, _)

/-- What point t writes back is block t of `reluLin` of the arrays as the region finds them. -/
theorem flushed_eq (c : Dev nD) (t : Fin cfg1.N) :
    (dat1 V c).flushed 3 t = ((cfg1.win 3).blk t).view.read (Elt Ideal) (Cert.Gcn.reluLin (V c main_v48) (V c main_v49) (V c main_arg4)) := by
  show (cfg1.win 3).cut (grid1.coords t) ((dat1 V c).after 3 t) = _
  rw [after1_3]
  unfold out1_3
  rw [View.canon_unit_zero off_zero]
  simp only [View.ld_unit_zero (S := S10000x64) off_zero, View.ld_unit_zero (S := S64x64) off_zero, View.ld_unit_zero (S := S1x64) off_zero]
  obtain ⟨e0, e1, e2, e3, e4, e5, e6, e7⟩ := idx_facts t
  funext j
  show k1_pay1 (iblk1 V c 0 t) (iblk1 V c 1 t) (iblk1 V c 2 t) j = Cert.Gcn.reluLin (V c main_v48) (V c main_v49) (V c main_arg4) (((cfg1.win 3).blk t).view.emb j)
  refine block_entry (V c main_v48) (V c main_v49) (V c main_arg4) (iblk1 V c 0 t) (iblk1 V c 1 t) (iblk1 V c 2 t) (win1_3.index t (0 : Fin 2)) ?_ ?_ ?_ j _ ?_ ?_
  · intro p k r hr
    show V c main_v48 (((cfg1.win 0).blk t).view.emb (ix2 p k)) = V c main_v48 (ix2 r k)
    refine congrArg (V c main_v48) (funext fun a => Fin.ext ?_)
    match a with
    | ⟨0, _⟩ => show win1_0.index t (0 : Fin 2) * 10000 + 1 * p.val = r.val; omega
    | ⟨1, _⟩ => show win1_0.index t (1 : Fin 2) * 64 + 1 * k.val = k.val; omega
  · intro i
    show V c main_v49 (((cfg1.win 1).blk t).view.emb i) = V c main_v49 i
    refine congrArg (V c main_v49) (funext fun a => Fin.ext ?_)
    match a with
    | ⟨0, _⟩ => show win1_1.index t (0 : Fin 2) * 1 + 1 * (i 0).val = (i 0).val; omega
    | ⟨1, _⟩ => show win1_1.index t (1 : Fin 2) * 64 + 1 * (i 1).val = (i 1).val; omega
  · intro i
    show V c main_arg4 (((cfg1.win 2).blk t).view.emb i) = V c main_arg4 i
    refine congrArg (V c main_arg4) (funext fun a => Fin.ext ?_)
    match a with
    | ⟨0, _⟩ => show win1_2.index t (0 : Fin 2) * 64 + 1 * (i 0).val = (i 0).val; omega
    | ⟨1, _⟩ => show win1_2.index t (1 : Fin 2) * 64 + 1 * (i 1).val = (i 1).val; omega
  · show win1_3.index t (0 : Fin 2) * 10000 + 1 * (j 0).val = win1_3.index t (0 : Fin 2) * 10000 + (j 0).val; omega
  · show win1_3.index t (1 : Fin 2) * 64 + 1 * (j 1).val = (j 1).val; omega

/-- An index of the array is in point t's block iff each coordinate is in the block's range on its axis. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v50).slice (win1_3.rect t)).set ↔ _
  rw [View.set_slice_whole, Rect.mem_set_unit]
  exact Iff.rfl

/-- Every row is in some point's block: row r in the block of point r / 10000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after the region. -/
theorem array_eq (c : Dev nD) : (dat1 V c).arrAt 3 cfg1.N = Cert.Gcn.reluLin (V c main_v48) (V c main_v49) (V c main_arg4) :=
  (dat1 V c).arrAt_eq_of_cover 3 _ (fun t _ => flushed_eq V c t) cover

end Cert.Gcn.Region1

end
-- ==== Proof.Region2.lean ====
/-
  Region 2 of the kernel as one whole-array function: the product with the last layer's weights plus the folded bias row.

  The region walks the 100000 rows in 10 blocks of 10000; block t of the output is written back at point t and holds, at
  (p, q), a sum over the 64 contracted coordinates of row p of the point's input block — row t · 10000 + p of the input
  array — against column q of the weights, which every point reads whole. So block t is the restriction of
  `linBias` of the arrays as the region finds them, the ten blocks tile the rows, and the array after the region is
  `linBias` of those arrays.
-/
import proofs.«169249_j87660282511747_2_alg».proof.Proof.Gen.KernelIdeal.Frame
import proofs.«169249_j87660282511747_2_alg».proof.Proof.Spec
import proofs.«169249_j87660282511747_2_alg».proof.Proof.LibSoftplus
import proofs.«169249_j87660282511747_2_alg».proof.Proof.LibDenseLayer
import Idealize.ShloMosaic.Lib.Pipeline.Value
import Idealize.ShloMosaic.Lib.ValueLayout

noncomputable section

open scoped BigOperators

namespace Cert.Gcn.Region2

open Idealize.ShloMosaic Idealize.ShloMosaic.TcCoe Idealize.ShloMosaic.ValueIdx Idealize.SL.Sem
open Cert.KernelIdeal Cert.KernelIdeal.Gen

/-- A rectangle that starts at the origin. -/
theorem off_zero : (![0, 0] : Fin 2 → Nat) = fun _ => 0 := funext fun a => by fin_cases a <;> rfl

/-- The body's stored value at an entry, from the blocks it loads. -/
theorem payload_apply (x0 : Vec Ideal S10000x64 .f32) (x1 : Vec Ideal S64x64 .f32) (x2 : Vec Ideal S1x64 .f32) (p : Fin 10000) (q : Fin 64) :
    k2_pay1 x0 x1 x2 (ix2 p q) = ∑ k : Fin 64, x0 (ix2 p k) * x1 (ix2 k q) + x2 (ix2 (0 : Fin 1) q) := by
  unfold k2_pay1
  refine (Cert.Lib.DenseLayer.layer_apply _ rfl none _ _ _ _ p q).trans ?_
  unfold Cert.Lib.DenseLayer.affine
  refine congrArg₂ (· + ·) (Finset.sum_congr rfl fun k _ => ?_) ?_
  · dsimp only
    rw [truncf_apply, shapeCast_self, truncf_apply]
  · dsimp only
    rw [shapeCast_self]

/-- The stored value at an entry of block b is `linBias` at the matching entry of the arrays, when the row block is rows
    b · 10000 … of the array and the other blocks are the arrays themselves. -/
theorem block_entry (X : FVec Ideal Cert.Gcn.SN .f32) (W : FVec Ideal Cert.Gcn.SW .f32) (B : FVec Ideal Cert.Gcn.SR .f32)
    (x0 : Vec Ideal S10000x64 .f32) (x1 : Vec Ideal S64x64 .f32) (x2 : Vec Ideal S1x64 .f32) (b : Nat)
    (h0 : ∀ (p : Fin 10000) (k : Fin 64) (r : Fin 100000), r.val = b * 10000 + p.val → x0 (ix2 p k) = X (ix2 r k))
    (h1 : ∀ i, x1 i = W i)
    (h2 : ∀ i, x2 i = B i)
    (j : S10000x64.Idx) (i : Cert.Gcn.SN.Idx) (hi0 : (i 0).val = b * 10000 + (j 0).val) (hi1 : (i 1).val = (j 1).val) :
    k2_pay1 x0 x1 x2 j = Cert.Gcn.linBias X W B i := by
  obtain ⟨p, q, rfl⟩ : ∃ (p : Fin 10000) (q : Fin 64), j = ix2 p q := ⟨j 0, j 1, eq_ix2 j⟩
  obtain ⟨r, s, rfl⟩ : ∃ (r : Fin 100000) (s : Fin 64), i = ix2 r s := ⟨i 0, i 1, eq_ix2 i⟩
  have hs : s = q := Fin.ext hi1
  subst hs
  rw [payload_apply, Cert.Gcn.linBias_apply]
  refine congrArg₂ (· + ·) (Finset.sum_congr rfl fun k _ => ?_) ?_
  · rw [h0 p k r hi0, h1]
  · rw [h2]

variable (V : (c : Dev nD) → (b : Ref sig .tc) → Buf (Elt Ideal) ((c : Thread nD τ).loc b))

/-- The printed index maps over the grid: the row blocks move with the point, the others stay at the origin. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) = t.val :=
  (by decide +kernel : ∀ t : Fin grid2.N, _)

/-- What point t writes back is block t of `linBias` of the arrays as the region finds them. -/
theorem flushed_eq (c : Dev nD) (t : Fin cfg2.N) :
    (dat2 V c).flushed 3 t = ((cfg2.win 3).blk t).view.read (Elt Ideal) (Cert.Gcn.linBias (V c main_v63) (V c main_arg6) (V c main_v67)) := by
  show (cfg2.win 3).cut (grid2.coords t) ((dat2 V c).after 3 t) = _
  rw [after2_3]
  unfold out2_3
  rw [View.canon_unit_zero off_zero]
  simp only [View.ld_unit_zero (S := S10000x64) off_zero, View.ld_unit_zero (S := S64x64) off_zero, View.ld_unit_zero (S := S1x64) off_zero]
  obtain ⟨e0, e1, e2, e3, e4, e5, e6, e7⟩ := idx_facts t
  funext j
  show k2_pay1 (iblk2 V c 0 t) (iblk2 V c 1 t) (iblk2 V c 2 t) j = Cert.Gcn.linBias (V c main_v63) (V c main_arg6) (V c main_v67) (((cfg2.win 3).blk t).view.emb j)
  refine block_entry (V c main_v63) (V c main_arg6) (V c main_v67) (iblk2 V c 0 t) (iblk2 V c 1 t) (iblk2 V c 2 t) (win2_3.index t (0 : Fin 2)) ?_ ?_ ?_ j _ ?_ ?_
  · intro p k r hr
    show V c main_v63 (((cfg2.win 0).blk t).view.emb (ix2 p k)) = V c main_v63 (ix2 r k)
    refine congrArg (V c main_v63) (funext fun a => Fin.ext ?_)
    match a with
    | ⟨0, _⟩ => show win2_0.index t (0 : Fin 2) * 10000 + 1 * p.val = r.val; omega
    | ⟨1, _⟩ => show win2_0.index t (1 : Fin 2) * 64 + 1 * k.val = k.val; omega
  · intro i
    show V c main_arg6 (((cfg2.win 1).blk t).view.emb i) = V c main_arg6 i
    refine congrArg (V c main_arg6) (funext fun a => Fin.ext ?_)
    match a with
    | ⟨0, _⟩ => show win2_1.index t (0 : Fin 2) * 64 + 1 * (i 0).val = (i 0).val; omega
    | ⟨1, _⟩ => show win2_1.index t (1 : Fin 2) * 64 + 1 * (i 1).val = (i 1).val; omega
  · intro i
    show V c main_v67 (((cfg2.win 2).blk t).view.emb i) = V c main_v67 i
    refine congrArg (V c main_v67) (funext fun a => Fin.ext ?_)
    match a with
    | ⟨0, _⟩ => show win2_2.index t (0 : Fin 2) * 1 + 1 * (i 0).val = (i 0).val; omega
    | ⟨1, _⟩ => show win2_2.index t (1 : Fin 2) * 64 + 1 * (i 1).val = (i 1).val; omega
  · show win2_3.index t (0 : Fin 2) * 10000 + 1 * (j 0).val = win2_3.index t (0 : Fin 2) * 10000 + (j 0).val; omega
  · show win2_3.index t (1 : Fin 2) * 64 + 1 * (j 1).val = (j 1).val; omega

/-- An index of the array is in point t's block iff each coordinate is in the block's range on its axis. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v68).slice (win2_3.rect t)).set ↔ _
  rw [View.set_slice_whole, Rect.mem_set_unit]
  exact Iff.rfl

/-- Every row is in some point's block: row r in the block of point r / 10000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5, e6, e7⟩ := idx_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- The output array after the region. -/
theorem array_eq (c : Dev nD) : (dat2 V c).arrAt 3 cfg2.N = Cert.Gcn.linBias (V c main_v63) (V c main_arg6) (V c main_v67) :=
  (dat2 V c).arrAt_eq_of_cover 3 _ (fun t _ => flushed_eq V c t) cover

end Cert.Gcn.Region2

end
-- ==== Proof.LibHostLine.lean ====
/-
  A straight line of host operations, each writing one buffer of its own: what a buffer holds at the end of the line.

  The buffers' contents after a line is the fold of the operations' results over the contents before it, so a line
  cut in two folds the second part over what the first leaves.  Suppose every operation of the line writes exactly
  one reference, and cut the line at one operation.  A reference that is none of those the part after the cut writes
  is written by none of its operations, so at the end of the line its buffer holds what it held right after the
  operation at the cut.  For the operation's own result this is the operation's function of what its operands'
  buffers held right before it; and when the operands too are written by nothing from the cut on (in particular are
  not the result), what they held right before the cut is what they hold at the end.  So at the END of the line

      result = f (operand₁ at the end) (operand₂ at the end) …

  for a constant, a one-, a two- and a three-operand operation.  A program in which every value has a buffer of its
  own, written once and after its operands, satisfies the conditions at every operation, and its buffers' final
  contents then follow one operation at a time, each from the earlier ones.
-/
import Idealize.ShloMosaic.Lib.StableHlo.Run

noncomputable section

namespace Cert.Lib.HostLine

open Idealize.ShloMosaic Idealize.ShloMosaic.StableHlo

variable {τ : Topo} {sig : RefSig} {Val : EltTy → Type}

variable {τ : Topo} {sig : RefSig} {Val : EltTy → Type}

/-- Operation by operation, the one reference each operation of a line writes. -/
abbrev WritesOne (l : List (HloOp τ sig Val)) (w : List (Ref sig .tc)) : Prop :=
  List.Forall₂ (fun op r => op.writes = {Proc.devRef (τ := τ) .tc r}) l w

/-- Two lines run one after the other: the second folds over what the first leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference that is none of those a line writes is written by none of its operations. -/
theorem not_written {l : List (HloOp τ sig Val)} {w : List (Ref sig .tc)} (h : WritesOne l w) :
    ∀ {r : Ref sig .tc}, r ∉ w → ∀ op ∈ l, Proc.devRef (τ := τ) .tc r ∉ op.writes := by
  induction h with
  | nil => intro r _ op hop; cases hop
  | @cons op' r' l' w' hab _ ih =>
    intro r hr op hop
    rcases List.mem_cons.mp hop with rfl | hop
    · rw [hab, Finset.mem_singleton]
      exact devRef_ne_of_ne fun e => hr (e ▸ List.mem_cons_self)
    · exact ih (fun hm => hr (List.mem_cons_of_mem _ hm)) op hop

/-- A buffer the rest of the line does not write holds at the end what it held after the operation at the cut. -/
theorem after_cut {l pre post : List (HloOp τ sig Val)} {op : HloOp τ sig Val} {wpost : List (Ref sig .tc)}
    (e : l = pre ++ op :: post) (hpost : WritesOne post wpost) (V : Valuation τ sig Val)
    {r : Ref sig .tc} (hr : r ∉ wpost) :
    after l V (Proc.devRef .tc r) = op.result (after pre V) (Proc.devRef .tc r) := by
  subst e
  rw [after_app, after_cons]
  exact after_of_forall_not_mem post _ (not_written hpost hr)

/-- A constant's buffer, not written again, holds the constant at the end. -/
theorem fin_nullary {l pre post : List (HloOp τ sig Val)} {wpost : List (Ref sig .tc)} (V : Valuation τ sig Val)
    (y : Ref sig .tc) (v : y.ty.Contents Val) (hy)
    (e : l = pre ++ nullary y v hy :: post) (hpost : WritesOne post wpost) (hy' : y ∉ wpost) :
    after l V (Proc.devRef .tc y) = v := by
  rw [after_cut e hpost V hy', nullary_result]

/-- A one-operand operation's buffer, not written again, holds at the end the operation's function of what the
    operand's buffer holds at the end, when nothing from the operation on writes the operand. -/
theorem fin_unary {l pre post : List (HloOp τ sig Val)} {wpost : List (Ref sig .tc)} (V : Valuation τ sig Val)
    (x y : Ref sig .tc) (f : x.ty.Contents Val → y.ty.Contents Val) (hx hy)
    (e : l = pre ++ unary x y f hx hy :: post) (hpost : WritesOne post wpost)
    (hy' : y ∉ wpost) (hx' : x ∉ y :: wpost) :
    after l V (Proc.devRef .tc y) = f (after l V (Proc.devRef .tc x)) := by
  have nx : x ≠ y := fun h => hx' (by rw [h]; exact List.mem_cons_self)
  rw [after_cut e hpost V hy', after_cut e hpost V (fun h => hx' (List.mem_cons_of_mem _ h)), unary_result,
    unary_result_ne x y f hx hy _ nx]

/-- The same for two operands. -/
theorem fin_binary {l pre post : List (HloOp τ sig Val)} {wpost : List (Ref sig .tc)} (V : Valuation τ sig Val)
    (a b y : Ref sig .tc) (f : a.ty.Contents Val → b.ty.Contents Val → y.ty.Contents Val) (ha hb hy)
    (e : l = pre ++ binary a b y f ha hb hy :: post) (hpost : WritesOne post wpost)
    (hy' : y ∉ wpost) (ha' : a ∉ y :: wpost) (hb' : b ∉ y :: wpost) :
    after l V (Proc.devRef .tc y) = f (after l V (Proc.devRef .tc a)) (after l V (Proc.devRef .tc b)) := by
  have na : a ≠ y := fun h => ha' (by rw [h]; exact List.mem_cons_self)
  have nb : b ≠ y := fun h => hb' (by rw [h]; exact List.mem_cons_self)
  rw [after_cut e hpost V hy', after_cut e hpost V (fun h => ha' (List.mem_cons_of_mem _ h)),
    after_cut e hpost V (fun h => hb' (List.mem_cons_of_mem _ h)), binary_result,
    binary_result_ne a b y f ha hb hy _ na, binary_result_ne a b y f ha hb hy _ nb]

/-- The same for three operands. -/
theorem fin_ternary {l pre post : List (HloOp τ sig Val)} {wpost : List (Ref sig .tc)} (V : Valuation τ sig Val)
    (c a b y : Ref sig .tc) (f : c.ty.Contents Val → a.ty.Contents Val → b.ty.Contents Val → y.ty.Contents Val) (hc ha hb hy)
    (e : l = pre ++ ternary c a b y f hc ha hb hy :: post) (hpost : WritesOne post wpost)
    (hy' : y ∉ wpost) (hc' : c ∉ y :: wpost) (ha' : a ∉ y :: wpost) (hb' : b ∉ y :: wpost) :
    after l V (Proc.devRef .tc y)
      = f (after l V (Proc.devRef .tc c)) (after l V (Proc.devRef .tc a)) (after l V (Proc.devRef .tc b)) := by
  have nc : c ≠ y := fun h => hc' (by rw [h]; exact List.mem_cons_self)
  have na : a ≠ y := fun h => ha' (by rw [h]; exact List.mem_cons_self)
  have nb : b ≠ y := fun h => hb' (by rw [h]; exact List.mem_cons_self)
  rw [after_cut e hpost V hy', after_cut e hpost V (fun h => hc' (List.mem_cons_of_mem _ h)),
    after_cut e hpost V (fun h => ha' (List.mem_cons_of_mem _ h)),
    after_cut e hpost V (fun h => hb' (List.mem_cons_of_mem _ h)), ternary_result,
    ternary_result_ne a b c y f hc ha hb hy _ nc, ternary_result_ne a b c y f hc ha hb hy _ na,
    ternary_result_ne a b c y f hc ha hb hy _ nb]

end Cert.Lib.HostLine

end
-- ==== Proof.KernelValue.lean ====
/-
  The idealized kernel's result array as one function of the launch contents of its arguments.

  The program's buffers are followed from the launch to the return, one segment at a time. Before the first region the host
  computes, from the edge list, the sources and destinations with the self loops appended and the edge weights. Region 0
  leaves x W1 in its output array. The host then aggregates that over the graph and lays the first bias as a row; region 1
  leaves relu(· + b1) W2; the host aggregates again and computes the folded bias row b2 Wl + bl; region 2 leaves the product
  with the last weights plus that row. A host operation rewrites only the buffer it writes and a region only its output
  array, so the sources, destinations, weights and the argument arrays are the same at every boundary where they are read.
-/
import proofs.«169249_j87660282511747_2_alg».proof.Proof.Gen.KernelIdeal.Frame
import proofs.«169249_j87660282511747_2_alg».proof.Proof.Graph
import proofs.«169249_j87660282511747_2_alg».proof.Proof.Spec
import proofs.«169249_j87660282511747_2_alg».proof.Proof.Region0
import proofs.«169249_j87660282511747_2_alg».proof.Proof.Region1
import proofs.«169249_j87660282511747_2_alg».proof.Proof.Region2
import Idealize.ShloMosaic.Lib.StableHlo.Run
import proofs.«169249_j87660282511747_2_alg».proof.Proof.LibHostLine

noncomputable section

namespace Cert.Gcn.Kernel

open Cert.KernelIdeal Cert.KernelIdeal.Gen Idealize.ShloMosaic Idealize.ShloMosaic.TcCoe Idealize.SL.Sem Idealize.ShloMosaic.StableHlo

/-- A buffer that no operation of a stretch writes keeps its contents through the stretch. -/
local macro "not_written " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-- The second bias folded through the last weights, as one row: b2 Wl + bl. -/
def foldedRow (b2 : FVec Ideal S64 .f32) (Wl : FVec Ideal S64x64 .f32) (bl : FVec Ideal S64 .f32) (hc : S64.ShapeCasts S1x64) :
    FVec Ideal S1x64 .f32 :=
  addf (Host.dotGeneral (F := Ideal) dot_S1x64_S64x64_S1x64_1_0_0_1_n_n (some .fp32) (shapeCast S1x64 b2 hc) Wl) (shapeCast S1x64 bl hc)

section Stretches

variable (W : Valuation τ sig (Elt Ideal))

/-! ## The stretches before the first region -/

/-- The three stretches before region 0, from any contents. -/
abbrev pre (W : Valuation τ sig (Elt Ideal)) : Valuation τ sig (Elt Ideal) :=
  after hostOps0_2 (after hostOps0_1 (after hostOps0 W))

/-- The first stretch cut after its seventh operation, the second concatenation. -/
theorem split7 : after (hostOps0 (F := Ideal)) W = after ((hostOps0 (F := Ideal)).drop 7) (after ((hostOps0 (F := Ideal)).take 7) W) :=
  (congrArg (fun l => after l W) (List.take_append_drop 7 (hostOps0 (F := Ideal))).symm).trans (Cert.Lib.HostLine.after_app _ _ W)

set_option maxRecDepth 8192 in
theorem head_src : after ((hostOps0 (F := Ideal)).take 7) W (Proc.devRef .tc main_v3) = Cert.Gcn.srcIds (W (Proc.devRef .tc main_arg1)) := by
  unfold Cert.Gcn.srcIds
  simp only [hostOps0, List.take_succ_cons, List.take_zero]
  after_results_simp <;> rfl

set_option maxRecDepth 8192 in
theorem head_dst : after ((hostOps0 (F := Ideal)).take 7) W (Proc.devRef .tc main_v6) = Cert.Gcn.dstIds (W (Proc.devRef .tc main_arg1)) := by
  unfold Cert.Gcn.dstIds
  simp only [hostOps0, List.take_succ_cons, List.take_zero]
  after_results_simp <;> rfl

section Pieces

variable (V : Valuation τ sig (Elt Ideal))

/-! The rest of the first stretch: the degrees, the test "positive" and the inverse square root. -/

set_option maxHeartbeats 4000000 in
theorem deg_pos : after ((hostOps0 (F := Ideal)).drop 7) V (Proc.devRef .tc main_v17)
    = cmpf (F := Ideal) .ogt (Cert.Gcn.degOf (V (Proc.devRef .tc main_v6))) (broadcastInDim S100000 ![] bcast_S_S100000 (constant (F := Ideal) S_ .f32 0x00000000#32)) := by
  unfold Cert.Gcn.degOf Cert.Gcn.wrapCol
  simp only [hostOps0, List.drop_succ_cons, List.drop_zero]
  after_results_simp <;> rfl

set_option maxHeartbeats 4000000 in
theorem deg_rsqrt : after ((hostOps0 (F := Ideal)).drop 7) V (Proc.devRef .tc main_v18) = Host.rsqrt (Cert.Gcn.degOf (V (Proc.devRef .tc main_v6))) := by
  unfold Cert.Gcn.degOf Cert.Gcn.wrapCol
  simp only [hostOps0, List.drop_succ_cons, List.drop_zero]
  after_results_simp <;> rfl

set_option maxHeartbeats 4000000 in
theorem deg_zero : after ((hostOps0 (F := Ideal)).drop 7) V (Proc.devRef .tc main_cst_3) = constant (F := Ideal) S_ .f32 0x00000000#32 := by
  simp only [hostOps0, List.drop_succ_cons, List.drop_zero]
  after_results_simp <;> rfl

set_option maxHeartbeats 4000000 in
theorem deg_src : after ((hostOps0 (F := Ideal)).drop 7) V (Proc.devRef .tc main_v3) = (V (Proc.devRef .tc main_v3)) := by
  simp only [hostOps0, List.drop_succ_cons, List.drop_zero]
  after_results_simp

set_option maxHeartbeats 4000000 in
theorem deg_dst : after ((hostOps0 (F := Ideal)).drop 7) V (Proc.devRef .tc main_v6) = (V (Proc.devRef .tc main_v6)) := by
  simp only [hostOps0, List.drop_succ_cons, List.drop_zero]
  after_results_simp

/-! The called selection: the inverse square root where the degree is positive, zero elsewhere. -/

theorem sel_dinv : after hostOps0_1 V (Proc.devRef .tc main_v19)
    = select (V (Proc.devRef .tc main_v17)) (V (Proc.devRef .tc main_v18)) (broadcastInDim S100000 ![] bcast_S_S100000 (id (V (Proc.devRef .tc main_cst_3)))) := by
  after_results_simp <;> rfl

theorem sel_src : after hostOps0_1 V (Proc.devRef .tc main_v3) = (V (Proc.devRef .tc main_v3)) := by not_written hostOps0_1
theorem sel_dst : after hostOps0_1 V (Proc.devRef .tc main_v6) = (V (Proc.devRef .tc main_v6)) := by not_written hostOps0_1

/-! The third stretch: the two gathers and their product. -/

set_option maxHeartbeats 4000000 in
theorem wt_of : after hostOps0_2 V (Proc.devRef .tc main_v34)
    = mulf (F := Ideal) (φ := .f32) (Host.gather gather_S100000_S1300000x1_S1300000_n_0_n_n_0_1_1 (V (Proc.devRef .tc main_v19)) (Cert.Gcn.wrapCol (V (Proc.devRef .tc main_v3))))
        (Host.gather gather_S100000_S1300000x1_S1300000_n_0_n_n_0_1_1 (V (Proc.devRef .tc main_v19)) (Cert.Gcn.wrapCol (V (Proc.devRef .tc main_v6)))) := by
  unfold Cert.Gcn.wrapCol
  after_results_simp <;> rfl

theorem wt_src : after hostOps0_2 V (Proc.devRef .tc main_v3) = (V (Proc.devRef .tc main_v3)) := by not_written hostOps0_2
theorem wt_dst : after hostOps0_2 V (Proc.devRef .tc main_v6) = (V (Proc.devRef .tc main_v6)) := by not_written hostOps0_2

/-- From the second concatenation on, the edge weights are computed from the two endpoint buffers. -/
theorem tail_wt : after hostOps0_2 (after hostOps0_1 (after ((hostOps0 (F := Ideal)).drop 7) V)) (Proc.devRef .tc main_v34)
    = Cert.Gcn.edgeWeightOf (V (Proc.devRef .tc main_v3)) (V (Proc.devRef .tc main_v6)) := by
  rw [wt_of, sel_dinv, sel_src, sel_dst, deg_pos, deg_rsqrt, deg_zero, deg_src, deg_dst]
  rfl

theorem tail_src : after hostOps0_2 (after hostOps0_1 (after ((hostOps0 (F := Ideal)).drop 7) V)) (Proc.devRef .tc main_v3) = (V (Proc.devRef .tc main_v3)) := by
  rw [wt_src, sel_src, deg_src]

theorem tail_dst : after hostOps0_2 (after hostOps0_1 (after ((hostOps0 (F := Ideal)).drop 7) V)) (Proc.devRef .tc main_v6) = (V (Proc.devRef .tc main_v6)) := by
  rw [wt_dst, sel_dst, deg_dst]

end Pieces

theorem pre_src : pre W (Proc.devRef .tc main_v3) = Cert.Gcn.srcIds (W (Proc.devRef .tc main_arg1)) := by
  show after hostOps0_2 (after hostOps0_1 (after hostOps0 W)) (Proc.devRef .tc main_v3) = _
  rw [split7, tail_src, head_src]

theorem pre_dst : pre W (Proc.devRef .tc main_v6) = Cert.Gcn.dstIds (W (Proc.devRef .tc main_arg1)) := by
  show after hostOps0_2 (after hostOps0_1 (after hostOps0 W)) (Proc.devRef .tc main_v6) = _
  rw [split7, tail_dst, head_dst]

theorem pre_wt : pre W (Proc.devRef .tc main_v34) = Cert.Gcn.edgeWeight (W (Proc.devRef .tc main_arg1)) := by
  show after hostOps0_2 (after hostOps0_1 (after hostOps0 W)) (Proc.devRef .tc main_v34) = _
  rw [split7, tail_wt, head_src, head_dst]
  rfl

theorem pre_main_arg0 : pre W (Proc.devRef .tc main_arg0) = W (Proc.devRef .tc main_arg0) :=
  (show after hostOps0_2 (after hostOps0_1 (after hostOps0 W)) (Proc.devRef .tc main_arg0) = after hostOps0_1 (after hostOps0 W) (Proc.devRef .tc main_arg0) by not_written hostOps0_2).trans
    ((show after hostOps0_1 (after hostOps0 W) (Proc.devRef .tc main_arg0) = after hostOps0 W (Proc.devRef .tc main_arg0) by not_written hostOps0_1).trans
      (show after hostOps0 W (Proc.devRef .tc main_arg0) = W (Proc.devRef .tc main_arg0) by not_written hostOps0))
theorem pre_main_arg2 : pre W (Proc.devRef .tc main_arg2) = W (Proc.devRef .tc main_arg2) :=
  (show after hostOps0_2 (after hostOps0_1 (after hostOps0 W)) (Proc.devRef .tc main_arg2) = after hostOps0_1 (after hostOps0 W) (Proc.devRef .tc main_arg2) by not_written hostOps0_2).trans
    ((show after hostOps0_1 (after hostOps0 W) (Proc.devRef .tc main_arg2) = after hostOps0 W (Proc.devRef .tc main_arg2) by not_written hostOps0_1).trans
      (show after hostOps0 W (Proc.devRef .tc main_arg2) = W (Proc.devRef .tc main_arg2) by not_written hostOps0))
theorem pre_main_arg3 : pre W (Proc.devRef .tc main_arg3) = W (Proc.devRef .tc main_arg3) :=
  (show after hostOps0_2 (after hostOps0_1 (after hostOps0 W)) (Proc.devRef .tc main_arg3) = after hostOps0_1 (after hostOps0 W) (Proc.devRef .tc main_arg3) by not_written hostOps0_2).trans
    ((show after hostOps0_1 (after hostOps0 W) (Proc.devRef .tc main_arg3) = after hostOps0 W (Proc.devRef .tc main_arg3) by not_written hostOps0_1).trans
      (show after hostOps0 W (Proc.devRef .tc main_arg3) = W (Proc.devRef .tc main_arg3) by not_written hostOps0))
theorem pre_main_arg4 : pre W (Proc.devRef .tc main_arg4) = W (Proc.devRef .tc main_arg4) :=
  (show after hostOps0_2 (after hostOps0_1 (after hostOps0 W)) (Proc.devRef .tc main_arg4) = after hostOps0_1 (after hostOps0 W) (Proc.devRef .tc main_arg4) by not_written hostOps0_2).trans
    ((show after hostOps0_1 (after hostOps0 W) (Proc.devRef .tc main_arg4) = after hostOps0 W (Proc.devRef .tc main_arg4) by not_written hostOps0_1).trans
      (show after hostOps0 W (Proc.devRef .tc main_arg4) = W (Proc.devRef .tc main_arg4) by not_written hostOps0))
theorem pre_main_arg5 : pre W (Proc.devRef .tc main_arg5) = W (Proc.devRef .tc main_arg5) :=
  (show after hostOps0_2 (after hostOps0_1 (after hostOps0 W)) (Proc.devRef .tc main_arg5) = after hostOps0_1 (after hostOps0 W) (Proc.devRef .tc main_arg5) by not_written hostOps0_2).trans
    ((show after hostOps0_1 (after hostOps0 W) (Proc.devRef .tc main_arg5) = after hostOps0 W (Proc.devRef .tc main_arg5) by not_written hostOps0_1).trans
      (show after hostOps0 W (Proc.devRef .tc main_arg5) = W (Proc.devRef .tc main_arg5) by not_written hostOps0))
theorem pre_main_arg6 : pre W (Proc.devRef .tc main_arg6) = W (Proc.devRef .tc main_arg6) :=
  (show after hostOps0_2 (after hostOps0_1 (after hostOps0 W)) (Proc.devRef .tc main_arg6) = after hostOps0_1 (after hostOps0 W) (Proc.devRef .tc main_arg6) by not_written hostOps0_2).trans
    ((show after hostOps0_1 (after hostOps0 W) (Proc.devRef .tc main_arg6) = after hostOps0 W (Proc.devRef .tc main_arg6) by not_written hostOps0_1).trans
      (show after hostOps0 W (Proc.devRef .tc main_arg6) = W (Proc.devRef .tc main_arg6) by not_written hostOps0))
theorem pre_main_arg7 : pre W (Proc.devRef .tc main_arg7) = W (Proc.devRef .tc main_arg7) :=
  (show after hostOps0_2 (after hostOps0_1 (after hostOps0 W)) (Proc.devRef .tc main_arg7) = after hostOps0_1 (after hostOps0 W) (Proc.devRef .tc main_arg7) by not_written hostOps0_2).trans
    ((show after hostOps0_1 (after hostOps0 W) (Proc.devRef .tc main_arg7) = after hostOps0 W (Proc.devRef .tc main_arg7) by not_written hostOps0_1).trans
      (show after hostOps0 W (Proc.devRef .tc main_arg7) = W (Proc.devRef .tc main_arg7) by not_written hostOps0))

/-! ## The stretch between regions 0 and 1 -/

set_option maxHeartbeats 4000000 in
theorem mid1_agg : after hostOps1 W (Proc.devRef .tc main_v48)
    = Cert.Gcn.aggrWith (W (Proc.devRef .tc main_v3)) (W (Proc.devRef .tc main_v6)) (W (Proc.devRef .tc main_v34)) (W (Proc.devRef .tc main_v35)) := by
  unfold Cert.Gcn.aggrWith Cert.Gcn.wrapCol Cert.Gcn.col
  after_results_simp <;> rfl

set_option maxHeartbeats 4000000 in
theorem mid1_row (hc : S64.ShapeCasts S1x64) : after hostOps1 W (Proc.devRef .tc main_v49) = shapeCast S1x64 (W (Proc.devRef .tc main_arg3)) hc := by
  after_results_simp <;> rfl

theorem mid1_main_v3 : after hostOps1 W (Proc.devRef .tc main_v3) = W (Proc.devRef .tc main_v3) := by not_written hostOps1
theorem mid1_main_v6 : after hostOps1 W (Proc.devRef .tc main_v6) = W (Proc.devRef .tc main_v6) := by not_written hostOps1
theorem mid1_main_v34 : after hostOps1 W (Proc.devRef .tc main_v34) = W (Proc.devRef .tc main_v34) := by not_written hostOps1
theorem mid1_main_arg4 : after hostOps1 W (Proc.devRef .tc main_arg4) = W (Proc.devRef .tc main_arg4) := by not_written hostOps1
theorem mid1_main_arg5 : after hostOps1 W (Proc.devRef .tc main_arg5) = W (Proc.devRef .tc main_arg5) := by not_written hostOps1
theorem mid1_main_arg6 : after hostOps1 W (Proc.devRef .tc main_arg6) = W (Proc.devRef .tc main_arg6) := by not_written hostOps1
theorem mid1_main_arg7 : after hostOps1 W (Proc.devRef .tc main_arg7) = W (Proc.devRef .tc main_arg7) := by not_written hostOps1

/-! ## The stretch between regions 1 and 2 -/

set_option maxHeartbeats 4000000 in
theorem mid2_agg : after hostOps2 W (Proc.devRef .tc main_v63)
    = Cert.Gcn.aggrWith (W (Proc.devRef .tc main_v3)) (W (Proc.devRef .tc main_v6)) (W (Proc.devRef .tc main_v34)) (W (Proc.devRef .tc main_v50)) := by
  unfold Cert.Gcn.aggrWith Cert.Gcn.wrapCol Cert.Gcn.col
  after_results_simp <;> rfl

set_option maxHeartbeats 4000000 in
theorem mid2_bias (hc : S64.ShapeCasts S1x64) : after hostOps2 W (Proc.devRef .tc main_v67)
    = foldedRow (W (Proc.devRef .tc main_arg5)) (W (Proc.devRef .tc main_arg6)) (W (Proc.devRef .tc main_arg7)) hc := by
  unfold foldedRow
  after_results_simp <;> rfl

theorem mid2_main_arg6 : after hostOps2 W (Proc.devRef .tc main_arg6) = W (Proc.devRef .tc main_arg6) := by not_written hostOps2

end Stretches

/-! ## The result -/

/-- The kernel: (aggr (relu (aggr (x W1) + b1) W2)) Wl + (b2 Wl + bl). -/
def kerOut (x : FVec Ideal S100000x64 .f32) (ei : IVec S2x1200000 32) (W1 : FVec Ideal S64x64 .f32) (b1 : FVec Ideal S64 .f32)
    (W2 : FVec Ideal S64x64 .f32) (b2 : FVec Ideal S64 .f32) (Wl : FVec Ideal S64x64 .f32) (bl : FVec Ideal S64 .f32)
    (hc : S64.ShapeCasts S1x64) : FVec Ideal S100000x64 .f32 :=
  Cert.Gcn.linBias (Cert.Gcn.aggr ei (Cert.Gcn.reluLin (Cert.Gcn.aggr ei (Cert.Gcn.lin x W1)) (shapeCast S1x64 b1 hc) W2)) Wl
    (foldedRow b2 Wl bl hc)

variable (m : (ℓ : Loc nD τ sig) → Buf (Elt Ideal) ℓ) (ρ : Dev nD → PrngReg)

/-- The result buffer at the last segment boundary is `kerOut` of the launch contents of the arguments. -/
theorem result_eq (c : Dev nD) (hc : S64.ShapeCasts S1x64) :
    W8 m ρ c (Proc.devRef .tc main_v68)
      = kerOut (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) hc := by
  -- boundary 3: the first region's entry
  have s3 : W3 m ρ c (Proc.devRef .tc main_v3) = Cert.Gcn.srcIds (m ((c : Thread nD τ).loc main_arg1)) := pre_src (W0 m ρ c)
  have d3 : W3 m ρ c (Proc.devRef .tc main_v6) = Cert.Gcn.dstIds (m ((c : Thread nD τ).loc main_arg1)) := pre_dst (W0 m ρ c)
  have w3 : W3 m ρ c (Proc.devRef .tc main_v34) = Cert.Gcn.edgeWeight (m ((c : Thread nD τ).loc main_arg1)) := pre_wt (W0 m ρ c)
  have a3_main_arg0 : W3 m ρ c (Proc.devRef .tc main_arg0) = m ((c : Thread nD τ).loc main_arg0) := pre_main_arg0 (W0 m ρ c)
  have a3_main_arg2 : W3 m ρ c (Proc.devRef .tc main_arg2) = m ((c : Thread nD τ).loc main_arg2) := pre_main_arg2 (W0 m ρ c)
  have a3_main_arg3 : W3 m ρ c (Proc.devRef .tc main_arg3) = m ((c : Thread nD τ).loc main_arg3) := pre_main_arg3 (W0 m ρ c)
  have a3_main_arg4 : W3 m ρ c (Proc.devRef .tc main_arg4) = m ((c : Thread nD τ).loc main_arg4) := pre_main_arg4 (W0 m ρ c)
  have a3_main_arg5 : W3 m ρ c (Proc.devRef .tc main_arg5) = m ((c : Thread nD τ).loc main_arg5) := pre_main_arg5 (W0 m ρ c)
  have a3_main_arg6 : W3 m ρ c (Proc.devRef .tc main_arg6) = m ((c : Thread nD τ).loc main_arg6) := pre_main_arg6 (W0 m ρ c)
  have a3_main_arg7 : W3 m ρ c (Proc.devRef .tc main_arg7) = m ((c : Thread nD τ).loc main_arg7) := pre_main_arg7 (W0 m ρ c)
  -- boundary 4: region 0 leaves x W1
  have h4 : W4 m ρ c (Proc.devRef .tc main_v35) = Cert.Gcn.lin (m ((c : Thread nD τ).loc main_arg0)) (m ((c : Thread nD τ).loc main_arg2)) := by
    refine (W4_arr m ρ c 2).trans ((Cert.Gcn.Region0.array_eq (V3 m ρ) c).trans ?_)
    show Cert.Gcn.lin (W3 m ρ c (Proc.devRef .tc main_arg0)) (W3 m ρ c (Proc.devRef .tc main_arg2)) = _
    rw [a3_main_arg0, a3_main_arg2]
  have s4 : W4 m ρ c (Proc.devRef .tc main_v3) = _ := (W4_of_ne m ρ c main_v3 (by decide)).trans s3
  have d4 : W4 m ρ c (Proc.devRef .tc main_v6) = _ := (W4_of_ne m ρ c main_v6 (by decide)).trans d3
  have w4 : W4 m ρ c (Proc.devRef .tc main_v34) = _ := (W4_of_ne m ρ c main_v34 (by decide)).trans w3
  have a4_main_arg3 : W4 m ρ c (Proc.devRef .tc main_arg3) = m ((c : Thread nD τ).loc main_arg3) := (W4_of_ne m ρ c main_arg3 (by decide)).trans a3_main_arg3
  have a4_main_arg4 : W4 m ρ c (Proc.devRef .tc main_arg4) = m ((c : Thread nD τ).loc main_arg4) := (W4_of_ne m ρ c main_arg4 (by decide)).trans a3_main_arg4
  have a4_main_arg5 : W4 m ρ c (Proc.devRef .tc main_arg5) = m ((c : Thread nD τ).loc main_arg5) := (W4_of_ne m ρ c main_arg5 (by decide)).trans a3_main_arg5
  have a4_main_arg6 : W4 m ρ c (Proc.devRef .tc main_arg6) = m ((c : Thread nD τ).loc main_arg6) := (W4_of_ne m ρ c main_arg6 (by decide)).trans a3_main_arg6
  have a4_main_arg7 : W4 m ρ c (Proc.devRef .tc main_arg7) = m ((c : Thread nD τ).loc main_arg7) := (W4_of_ne m ρ c main_arg7 (by decide)).trans a3_main_arg7
  -- boundary 5: the aggregation of x W1, the first bias as a row
  have g5 : W5 m ρ c (Proc.devRef .tc main_v48) = Cert.Gcn.aggr (m ((c : Thread nD τ).loc main_arg1)) (Cert.Gcn.lin (m ((c : Thread nD τ).loc main_arg0)) (m ((c : Thread nD τ).loc main_arg2))) := by
    refine (mid1_agg (W4 m ρ c)).trans ?_
    rw [s4, d4, w4, h4]
    rfl
  have r5 : W5 m ρ c (Proc.devRef .tc main_v49) = shapeCast S1x64 (m ((c : Thread nD τ).loc main_arg3)) hc := by
    refine (mid1_row (W4 m ρ c) hc).trans ?_
    rw [a4_main_arg3]
  have s5 : W5 m ρ c (Proc.devRef .tc main_v3) = _ := (mid1_main_v3 (W4 m ρ c)).trans s4
  have d5 : W5 m ρ c (Proc.devRef .tc main_v6) = _ := (mid1_main_v6 (W4 m ρ c)).trans d4
  have w5 : W5 m ρ c (Proc.devRef .tc main_v34) = _ := (mid1_main_v34 (W4 m ρ c)).trans w4
  have a5_main_arg4 : W5 m ρ c (Proc.devRef .tc main_arg4) = m ((c : Thread nD τ).loc main_arg4) := (mid1_main_arg4 (W4 m ρ c)).trans a4_main_arg4
  have a5_main_arg5 : W5 m ρ c (Proc.devRef .tc main_arg5) = m ((c : Thread nD τ).loc main_arg5) := (mid1_main_arg5 (W4 m ρ c)).trans a4_main_arg5
  have a5_main_arg6 : W5 m ρ c (Proc.devRef .tc main_arg6) = m ((c : Thread nD τ).loc main_arg6) := (mid1_main_arg6 (W4 m ρ c)).trans a4_main_arg6
  have a5_main_arg7 : W5 m ρ c (Proc.devRef .tc main_arg7) = m ((c : Thread nD τ).loc main_arg7) := (mid1_main_arg7 (W4 m ρ c)).trans a4_main_arg7
  -- boundary 6: region 1 leaves relu(· + b1) W2
  have h6 : W6 m ρ c (Proc.devRef .tc main_v50) = Cert.Gcn.reluLin (Cert.Gcn.aggr (m ((c : Thread nD τ).loc main_arg1)) (Cert.Gcn.lin (m ((c : Thread nD τ).loc main_arg0)) (m ((c : Thread nD τ).loc main_arg2))))
      (shapeCast S1x64 (m ((c : Thread nD τ).loc main_arg3)) hc) (m ((c : Thread nD τ).loc main_arg4)) := by
    refine (W6_arr m ρ c 3).trans ((Cert.Gcn.Region1.array_eq (V5 m ρ) c).trans ?_)
    show Cert.Gcn.reluLin (W5 m ρ c (Proc.devRef .tc main_v48)) (W5 m ρ c (Proc.devRef .tc main_v49)) (W5 m ρ c (Proc.devRef .tc main_arg4)) = _
    rw [g5, r5, a5_main_arg4]
  have s6 : W6 m ρ c (Proc.devRef .tc main_v3) = _ := (W6_of_ne m ρ c main_v3 (by decide)).trans s5
  have d6 : W6 m ρ c (Proc.devRef .tc main_v6) = _ := (W6_of_ne m ρ c main_v6 (by decide)).trans d5
  have w6 : W6 m ρ c (Proc.devRef .tc main_v34) = _ := (W6_of_ne m ρ c main_v34 (by decide)).trans w5
  have a6_main_arg5 : W6 m ρ c (Proc.devRef .tc main_arg5) = m ((c : Thread nD τ).loc main_arg5) := (W6_of_ne m ρ c main_arg5 (by decide)).trans a5_main_arg5
  have a6_main_arg6 : W6 m ρ c (Proc.devRef .tc main_arg6) = m ((c : Thread nD τ).loc main_arg6) := (W6_of_ne m ρ c main_arg6 (by decide)).trans a5_main_arg6
  have a6_main_arg7 : W6 m ρ c (Proc.devRef .tc main_arg7) = m ((c : Thread nD τ).loc main_arg7) := (W6_of_ne m ρ c main_arg7 (by decide)).trans a5_main_arg7
  -- boundary 7: the second aggregation, the folded bias row
  have g7 : W7 m ρ c (Proc.devRef .tc main_v63) = Cert.Gcn.aggr (m ((c : Thread nD τ).loc main_arg1)) (Cert.Gcn.reluLin (Cert.Gcn.aggr (m ((c : Thread nD τ).loc main_arg1)) (Cert.Gcn.lin (m ((c : Thread nD τ).loc main_arg0)) (m ((c : Thread nD τ).loc main_arg2))))
      (shapeCast S1x64 (m ((c : Thread nD τ).loc main_arg3)) hc) (m ((c : Thread nD τ).loc main_arg4))) := by
    refine (mid2_agg (W6 m ρ c)).trans ?_
    rw [s6, d6, w6, h6]
    rfl
  have b7 : W7 m ρ c (Proc.devRef .tc main_v67) = foldedRow (m ((c : Thread nD τ).loc main_arg5)) (m ((c : Thread nD τ).loc main_arg6)) (m ((c : Thread nD τ).loc main_arg7)) hc := by
    refine (mid2_bias (W6 m ρ c) hc).trans ?_
    rw [a6_main_arg5, a6_main_arg6, a6_main_arg7]
  have a7 : W7 m ρ c (Proc.devRef .tc main_arg6) = m ((c : Thread nD τ).loc main_arg6) := (mid2_main_arg6 (W6 m ρ c)).trans a6_main_arg6
  -- boundary 8: region 2 leaves the product with the last weights plus the folded row
  refine (W8_arr m ρ c 3).trans ((Cert.Gcn.Region2.array_eq (V7 m ρ) c).trans ?_)
  show Cert.Gcn.linBias (W7 m ρ c (Proc.devRef .tc main_v63)) (W7 m ρ c (Proc.devRef .tc main_arg6)) (W7 m ρ c (Proc.devRef .tc main_v67)) = _
  rw [g7, a7, b7]
  rfl

end Cert.Gcn.Kernel

end
-- ==== Proof.Layers.lean ====
import proofs.«169249_j87660282511747_2_alg».proof.Proof.Gen.KernelIdeal
import proofs.«169249_j87660282511747_2_alg».proof.Proof.Gen.ReferenceIdeal
import proofs.«169249_j87660282511747_2_alg».proof.Proof.Spec
import Idealize.ShloMosaic.Lib.StackMember
import Idealize.ShloMosaic.Lib.ValueLayout
import Idealize.ShloMosaic.Lib.Pipeline.Value
import Idealize.ShloMosaic.PureOps.Ideal.Laws

/-!
  The reference's three dense layers, written with host matrix products and broadcasts, are the whole-array
  functions lin, reluLin and linBias.

  Entry (p, q) of a plain [100000, 64] by [64, 64] product is the sum over the 64 contracted coordinates k of
  x(p, k) w(k, q). A [64] bias laid out as a [1, 64] row and then along all 100000 rows reads, at (p, q), the bias
  entry q; the same [64] vector reshaped to a [1, 64] row reads, at (0, k), the entry k. So both spellings of a bias
  row put the same number under each entry, and layers one and two agree term by term with their specifications.

  Layer three is where the two sides associate differently: the reference computes (a + b2) Wl + bl, the other side
  a Wl + (b2 Wl + bl). Over the extended reals these agree when b2 and Wl are real-valued, whatever a holds.
-/

noncomputable section
open scoped BigOperators
namespace Cert.Gcn.Layers
open Idealize.ShloMosaic Idealize.ShloMosaic.ValueIdx Idealize.ShloMosaic.StackMember

/-- The reference's dimension numbers are the plain ones: contract the left operand's axis 1 with the right operand's axis 0. -/
theorem refDot_eq :
    Cert.ReferenceIdeal.dot_S100000x64_S64x64_S100000x64_1_0_0_1_n_n = DotDims.plain 100000 64 64 := rfl

/-- Likewise for the [1, 64] by [64, 64] product that folds the bias. -/
theorem rowDot_eq :
    Cert.KernelIdeal.dot_S1x64_S64x64_S1x64_1_0_0_1_n_n = DotDims.plain 1 64 64 := rfl

/-- The reference's product read at (p, q): the sum over k of x(p, k) w(k, q). -/
theorem refDot_apply (prec : Option ContractPrecision) (x : FVec Ideal Cert.Gcn.SN .f32) (w : FVec Ideal Cert.Gcn.SW .f32)
    (p : Fin 100000) (q : Fin 64) :
    Host.dotGeneral Cert.ReferenceIdeal.dot_S100000x64_S64x64_S100000x64_1_0_0_1_n_n prec x w (ix2 p q)
      = ∑ k : Fin 64, x (ix2 p k) * w (ix2 k q) := by
  rw [refDot_eq]
  exact dotGeneral_plain_apply prec x w p q

/-- The one-row product read at (0, q): the sum over k of r(0, k) w(k, q). -/
theorem rowDot_apply (prec : Option ContractPrecision) (r : FVec Ideal Cert.Gcn.SR .f32) (w : FVec Ideal Cert.Gcn.SW .f32)
    (q : Fin 64) :
    Host.dotGeneral Cert.KernelIdeal.dot_S1x64_S64x64_S1x64_1_0_0_1_n_n prec r w (ix2 (0 : Fin 1) q)
      = ∑ k : Fin 64, r (ix2 (0 : Fin 1) k) * w (ix2 k q) := by
  rw [rowDot_eq]
  exact dotGeneral_plain_apply prec r w (0 : Fin 1) q

/-- A [64] vector laid out as a [1, 64] row and then along every one of the 100000 rows reads, at (p, q), its entry q. -/
theorem biasRows_apply {α : Type} (b : Cert.ReferenceIdeal.S64.Idx → α)
    (h1 : Cert.ReferenceIdeal.S64.BroadcastsInDim Cert.ReferenceIdeal.S1x64 (![1] : Fin 1 → Fin Cert.ReferenceIdeal.S1x64.rank))
    (h2 : Cert.ReferenceIdeal.S1x64.BroadcastsInDim Cert.ReferenceIdeal.S100000x64 (![0, 1] : Fin 2 → Fin Cert.ReferenceIdeal.S100000x64.rank))
    (p : Fin 100000) (q : Fin 64) :
    broadcastInDim Cert.ReferenceIdeal.S100000x64 ![0, 1] h2 (broadcastInDim Cert.ReferenceIdeal.S1x64 ![1] h1 b) (ix2 p q)
      = b (ix1 q) := by
  refine (broadcastInDim_apply _ h2 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ h1 b (ix2 (0 : Fin 1) q) (ix1 q) (fun a => match a with
    | ⟨0, _⟩ => by show q.val = if (64 : Nat) = 1 then 0 else q.val; rw [if_neg (by decide)])

/-- The same [64] vector reshaped to a [1, 64] row reads, at (0, k), its entry k. -/
theorem castRow_apply {α : Type} (b : Cert.ReferenceIdeal.S64.Idx → α)
    (hc : Cert.KernelIdeal.S64.ShapeCasts Cert.KernelIdeal.S1x64) (k : Fin 64) :
    shapeCast Cert.KernelIdeal.S1x64 b hc (ix2 (0 : Fin 1) k) = b (ix1 k) :=
  shapeCast_a_1a_apply b hc (0 : Fin 1) k

/-- A splat of the zero word over the [100000, 64] array reads 0 everywhere. -/
theorem zeroSplat_apply
    (h0 : Cert.ReferenceIdeal.S_.BroadcastsInDim Cert.ReferenceIdeal.S100000x64 (![] : Fin 0 → Fin Cert.ReferenceIdeal.S100000x64.rank))
    (i : Cert.ReferenceIdeal.S100000x64.Idx) :
    broadcastInDim Cert.ReferenceIdeal.S100000x64 ![] h0 (constant (F := Ideal) Cert.ReferenceIdeal.S_ .f32 0x00000000#32) i
      = (0 : EReal) := by
  show Ideal.ofBits .f32 0x00000000#32 = 0
  exact Ideal.ofBits_zero_f32

/-- layer 1: the host product is `lin`. -/
theorem ref_lin (x : FVec Ideal Cert.Gcn.SN .f32) (w : FVec Ideal Cert.Gcn.SW .f32) :
    Host.dotGeneral Cert.ReferenceIdeal.dot_S100000x64_S64x64_S100000x64_1_0_0_1_n_n none x w = Cert.Gcn.lin x w := by
  funext i
  obtain ⟨p, q, rfl⟩ : ∃ (p : Fin 100000) (q : Fin 64), i = ix2 p q := ⟨i 0, i 1, eq_ix2 i⟩
  rw [refDot_apply, Cert.Gcn.lin_apply]

/-- layer 2: bias row (a [64] vector laid as [1,64], then along the rows), relu as a maximum with a zero splat, host product. `b1row` is the kernel's spelling of the same row (a reshape [64]→[1,64]). -/
theorem ref_reluLin (a : FVec Ideal Cert.Gcn.SN .f32) (b1 : FVec Ideal Cert.ReferenceIdeal.S64 .f32) (w : FVec Ideal Cert.Gcn.SW .f32)
    (h1 : Cert.ReferenceIdeal.S64.BroadcastsInDim Cert.ReferenceIdeal.S1x64 (![1] : Fin 1 → Fin Cert.ReferenceIdeal.S1x64.rank))
    (h2 : Cert.ReferenceIdeal.S1x64.BroadcastsInDim Cert.ReferenceIdeal.S100000x64 (![0, 1] : Fin 2 → Fin Cert.ReferenceIdeal.S100000x64.rank))
    (h0 : Cert.ReferenceIdeal.S_.BroadcastsInDim Cert.ReferenceIdeal.S100000x64 (![] : Fin 0 → Fin Cert.ReferenceIdeal.S100000x64.rank))
    (hc : Cert.KernelIdeal.S64.ShapeCasts Cert.KernelIdeal.S1x64) :
    Host.dotGeneral Cert.ReferenceIdeal.dot_S100000x64_S64x64_S100000x64_1_0_0_1_n_n none
        (maximumf (addf a (broadcastInDim Cert.ReferenceIdeal.S100000x64 ![0, 1] h2 (broadcastInDim Cert.ReferenceIdeal.S1x64 ![1] h1 b1)))
                  (broadcastInDim Cert.ReferenceIdeal.S100000x64 ![] h0 (constant (F := Ideal) Cert.ReferenceIdeal.S_ .f32 0x00000000#32))) w
      = Cert.Gcn.reluLin a (shapeCast Cert.KernelIdeal.S1x64 b1 hc) w := by
  funext i
  obtain ⟨p, q, rfl⟩ : ∃ (p : Fin 100000) (q : Fin 64), i = ix2 p q := ⟨i 0, i 1, eq_ix2 i⟩
  rw [refDot_apply, Cert.Gcn.reluLin_apply]
  refine Finset.sum_congr rfl fun k _ => ?_
  rw [maximumf_apply, addf_apply, biasRows_apply, zeroSplat_apply, castRow_apply]

/-- layer 3: (a + b2) Wl + bl = a Wl + (b2 Wl + bl) for real b2 and Wl. The kernel's bias row is the host product of the [1,64] row of b2 with Wl (precision some .fp32) plus the [1,64] row of bl. -/
theorem ref_linBias (a : FVec Ideal Cert.Gcn.SN .f32) (b2 bl : FVec Ideal Cert.ReferenceIdeal.S64 .f32) (w : FVec Ideal Cert.Gcn.SW .f32)
    (hb : ∀ i, ∃ r : ℝ, b2 i = (r : EReal)) (hw : ∀ i, ∃ r : ℝ, w i = (r : EReal))
    (h1 : Cert.ReferenceIdeal.S64.BroadcastsInDim Cert.ReferenceIdeal.S1x64 (![1] : Fin 1 → Fin Cert.ReferenceIdeal.S1x64.rank))
    (h2 : Cert.ReferenceIdeal.S1x64.BroadcastsInDim Cert.ReferenceIdeal.S100000x64 (![0, 1] : Fin 2 → Fin Cert.ReferenceIdeal.S100000x64.rank))
    (hc : Cert.KernelIdeal.S64.ShapeCasts Cert.KernelIdeal.S1x64) :
    addf (Host.dotGeneral Cert.ReferenceIdeal.dot_S100000x64_S64x64_S100000x64_1_0_0_1_n_n none
            (addf a (broadcastInDim Cert.ReferenceIdeal.S100000x64 ![0, 1] h2 (broadcastInDim Cert.ReferenceIdeal.S1x64 ![1] h1 b2))) w)
         (broadcastInDim Cert.ReferenceIdeal.S100000x64 ![0, 1] h2 (broadcastInDim Cert.ReferenceIdeal.S1x64 ![1] h1 bl))
      = Cert.Gcn.linBias a w
          (addf (Host.dotGeneral Cert.KernelIdeal.dot_S1x64_S64x64_S1x64_1_0_0_1_n_n (some .fp32) (shapeCast Cert.KernelIdeal.S1x64 b2 hc) w)
                (shapeCast Cert.KernelIdeal.S1x64 bl hc)) := by
  choose rb hrb using hb
  choose rw_ hrw using hw
  funext i
  obtain ⟨p, q, rfl⟩ : ∃ (p : Fin 100000) (q : Fin 64), i = ix2 p q := ⟨i 0, i 1, eq_ix2 i⟩
  rw [Cert.Gcn.linBias_apply, addf_apply, addf_apply, refDot_apply, rowDot_apply, biasRows_apply, castRow_apply]
  -- both sides entry by entry: the bias entries are b2 k and bl q on either side
  have hl : ∀ k : Fin 64,
      addf a (broadcastInDim Cert.ReferenceIdeal.S100000x64 ![0, 1] h2 (broadcastInDim Cert.ReferenceIdeal.S1x64 ![1] h1 b2)) (ix2 p k)
          * w (ix2 k q)
        = (a (ix2 p k) + ((rb (ix1 k) : ℝ) : EReal)) * ((rw_ (ix2 k q) : ℝ) : EReal) := fun k => by
    rw [addf_apply, biasRows_apply, hrb, hrw]
  have hr : ∀ k : Fin 64,
      shapeCast Cert.KernelIdeal.S1x64 b2 hc (ix2 (0 : Fin 1) k) * w (ix2 k q)
        = ((rb (ix1 k) : ℝ) : EReal) * ((rw_ (ix2 k q) : ℝ) : EReal) := fun k => by
    rw [castRow_apply, hrb, hrw]
  have ha : ∀ k : Fin 64, a (ix2 p k) * w (ix2 k q) = a (ix2 p k) * ((rw_ (ix2 k q) : ℝ) : EReal) := fun k => by
    rw [hrw]
  rw [Finset.sum_congr rfl fun k _ => hl k, Finset.sum_congr rfl fun k _ => hr k, Finset.sum_congr rfl fun k _ => ha k]
  exact Cert.Gcn.fold_bias (fun k => a (ix2 p k)) (fun k => rb (ix1 k)) (fun k => rw_ (ix2 k q)) (bl (ix1 q))
end Cert.Gcn.Layers
end
-- ==== Proof.Bridge.lean ====
/-
  The reference's composition and the kernel's are one function of the arguments.

  Layer by layer: the reference's host product x W1 is the kernel's first region; its bias, maximum with zero and product
  with W2 are the second region, the bias row spelt as a reshape there and as two broadcasts here; and its last layer
  (a + b2) Wl + bl is the third region's a Wl + (b2 Wl + bl), the one place where the two programs arrange the arithmetic
  differently — equal because b2 and Wl are real (the precondition), whatever the aggregated rows a hold. Between the
  layers both apply the same graph aggregation to equal arrays.
-/
import proofs.«169249_j87660282511747_2_alg».proof.Proof.RefValue
import proofs.«169249_j87660282511747_2_alg».proof.Proof.KernelValue
import proofs.«169249_j87660282511747_2_alg».proof.Proof.Layers

noncomputable section

namespace Cert.Gcn

open Idealize.ShloMosaic

theorem refOut_eq_kerOut (x : FVec Ideal Cert.ReferenceIdeal.S100000x64 .f32) (ei : IVec Cert.ReferenceIdeal.S2x1200000 32)
    (W1 : FVec Ideal Cert.ReferenceIdeal.S64x64 .f32) (b1 : FVec Ideal Cert.ReferenceIdeal.S64 .f32)
    (W2 : FVec Ideal Cert.ReferenceIdeal.S64x64 .f32) (b2 : FVec Ideal Cert.ReferenceIdeal.S64 .f32)
    (Wl : FVec Ideal Cert.ReferenceIdeal.S64x64 .f32) (bl : FVec Ideal Cert.ReferenceIdeal.S64 .f32)
    (hc : Cert.KernelIdeal.S64.ShapeCasts Cert.KernelIdeal.S1x64)
    (hb : ∀ i, ∃ r : ℝ, b2 i = (r : EReal)) (hw : ∀ i, ∃ r : ℝ, Wl i = (r : EReal)) :
    refOut x ei W1 b1 W2 b2 Wl bl = Kernel.kerOut x ei W1 b1 W2 b2 Wl bl hc := by
  unfold refOut Kernel.kerOut Kernel.foldedRow biasRows
  rw [Layers.ref_lin x W1]
  rw [Layers.ref_reluLin (aggr ei (lin x W1)) b1 W2 _ _ _ hc]
  rw [Layers.ref_linBias _ b2 bl Wl hb hw _ _ hc]

end Cert.Gcn

end
-- ==== Proof.lean ====
/-
  A two-layer graph convolution network on 100000 nodes with 64 features: a Pallas kernel in three pipelined regions (the
  three dense layers, each walking the rows in ten blocks) with the graph aggregation on the host between them, against
  the plain jnp reference, over the extended reals.

  Both programs compute, from the edge list, the same sources, destinations and symmetric-normalisation weights, and apply
  the same gather–scale–scatter aggregation; they differ only in how the dense layers are written. The kernel's regions are
  read as whole-array functions (`lin`, `reluLin`, `linBias`), the reference's host products and broadcasts are shown to be
  the same functions, and the one algebraic difference — the second bias folded through the last weights,
  (a + b2) Wl + bl = a Wl + (b2 Wl + bl) — holds because the precondition makes b2 and Wl real, for any extended-real rows a.
  The kernel's idealization rewrote nothing, so `preserves` is trivial; the word-level kernel's and the idealized kernel's
  frames are the generated ones, and the reference's frame is its run with the result dropped.
-/
import proofs.«169249_j87660282511747_2_alg».proof.Defs
import proofs.«169249_j87660282511747_2_alg».proof.Proof.Gen.Kernel
import proofs.«169249_j87660282511747_2_alg».proof.Proof.Gen.Kernel.Skeleton
import proofs.«169249_j87660282511747_2_alg».proof.Proof.Gen.Kernel.Launch
import proofs.«169249_j87660282511747_2_alg».proof.Proof.Gen.Kernel.Points
import proofs.«169249_j87660282511747_2_alg».proof.Proof.Gen.Kernel.Frame
import proofs.«169249_j87660282511747_2_alg».proof.Proof.Gen.KernelIdeal
import proofs.«169249_j87660282511747_2_alg».proof.Proof.Gen.KernelIdeal.Skeleton
import proofs.«169249_j87660282511747_2_alg».proof.Proof.Gen.KernelIdeal.Launch
import proofs.«169249_j87660282511747_2_alg».proof.Proof.Gen.KernelIdeal.Points
import proofs.«169249_j87660282511747_2_alg».proof.Proof.Gen.KernelIdeal.Frame
import proofs.«169249_j87660282511747_2_alg».proof.Proof.Gen.ReferenceIdeal
import proofs.«169249_j87660282511747_2_alg».proof.Proof.Gen.Pre_finite_inputs
import proofs.«169249_j87660282511747_2_alg».proof.Proof.RefRunP
import proofs.«169249_j87660282511747_2_alg».proof.Proof.KernelRun
import proofs.«169249_j87660282511747_2_alg».proof.Proof.Finite
import proofs.«169249_j87660282511747_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The [64] → [1, 64] reshape the kernel's host side uses for its bias rows is a cast of shapes. -/
theorem row_cast : Cert.KernelIdeal.S64.ShapeCasts Cert.KernelIdeal.S1x64 := Cert.KernelIdeal.Facts₀.shapeCasts_S64_S1x64

/-- Both programs end with the same result array: the kernel's composition of its three layers around the graph
    aggregation, which the reference's composition equals when b2 and Wl are real. -/
theorem algebraic : Cert.algebraic_KernelIdeal_ReferenceIdeal := by
  intro m ρ m' ρ' hpre hagree
  refine ⟨fun c => Cert.Gcn.Kernel.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) row_cast, ?_, ?_⟩
  · exact (θ_run Cert.KernelIdeal.defs _ _).mono
      (fun r h c => ⟨(h c).1.trans (Cert.Gcn.Kernel.result_eq m ρ c row_cast), (h c).2⟩)
      (Cert.KernelIdeal.RunNamed.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨hb, hw⟩ := Cert.Gcn.Finite.bias_weights_real _ _ _ _ _ _ _ _ (hpre c)
    obtain ⟨e0, e1, e2, e3, e4, e5, e6, e7⟩ := hagree c
    rw [Cert.Gcn.res_eq, e0, e1, e2, e3, e4, e5, e6, e7]
    exact Cert.Gcn.refOut_eq_kerOut _ _ _ _ _ _ _ _ row_cast hb hw

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
